-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33_1)) (v1 : (c : Dev Cert.KernelIdeal.nD) → Buf (Elt Ideal) ((c.tc : Thread Cert.KernelIdeal.nD Cert.KernelIdeal.τ).loc Cert.KernelIdeal.main_v33_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_1) = v0 c
          ∧ r.2.mem ((c.tc : Thread Cert.KernelIdeal.nD Cert.KernelIdeal.τ).loc Cert.KernelIdeal.main_v33_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x10 : Shape := ⟨2, ![500000, 10]⟩
abbrev S2x8000000 : Shape := ⟨2, ![2, 8000000]⟩
abbrev S8000000 : Shape := ⟨1, ![8000000]⟩
abbrev S500000x32 : Shape := ⟨2, ![500000, 32]⟩
abbrev S2x42x32 : Shape := ⟨3, ![2, 42, 32]⟩
abbrev S32 : Shape := ⟨1, ![32]⟩
abbrev S2x32 : Shape := ⟨2, ![2, 32]⟩
abbrev S2 : Shape := ⟨1, ![2]⟩
abbrev S_ : Shape := ⟨0, ![]⟩

class Facts : Prop where
  bcast_S_S500000x10 : S_.BroadcastsInDim S500000x10 (![] : Fin 0 → Fin S500000x10.rank)
  reducesTo_S500000x10_S_d0_1 : S500000x10.ReducesTo [0, 1] S_
  h_S_ : 0 < S_.numel
  bcast_S_S8000000 : S_.BroadcastsInDim S8000000 (![] : Fin 0 → Fin S8000000.rank)
  reducesTo_S8000000_S_d0 : S8000000.ReducesTo [0] S_
  bcast_S_S500000x32 : S_.BroadcastsInDim S500000x32 (![] : Fin 0 → Fin S500000x32.rank)
  reducesTo_S500000x32_S_d0_1 : S500000x32.ReducesTo [0, 1] S_
  bcast_S_S2x42x32 : S_.BroadcastsInDim S2x42x32 (![] : Fin 0 → Fin S2x42x32.rank)
  reducesTo_S2x42x32_S_d0_1_2 : S2x42x32.ReducesTo [0, 1, 2] S_
  bcast_S_S32 : S_.BroadcastsInDim S32 (![] : Fin 0 → Fin S32.rank)
  reducesTo_S32_S_d0 : S32.ReducesTo [0] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S2x42x32 .f32) (main_arg9 : FVec F S32 .f32) (main_arg10 : FVec F S2x32 .f32) (main_arg11 : FVec F S2 .f32) (main_v33 : IVec S_ 1) : IVec S_ 1 :=
  let main_v34 : FVec F S2x42x32 .f32 := Host.absf main_arg8
  let main_cst_12 : FVec F S_ .f32 := constant S_ .f32 0x7F800000#32
  let main_v35 : FVec F S2x42x32 .f32 := broadcastInDim S2x42x32 ![] bcast_S_S2x42x32 main_cst_12
  let main_v36 : IVec S2x42x32 1 := cmpf .olt main_v34 main_v35
  let main_c_13 : IVec S_ 1 := constantI S_ 1 1#1
  let main_v37 : IVec S_ 1 := (fun x v => Host.reduce IntOp.andi x v reducesTo_S2x42x32_S_d0_1_2 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S2x32 .f32 := Host.absf main_arg10
  let main_cst_16 : FVec F S_ .f32 := constant S_ .f32 0x7F800000#32
  let main_v45 : FVec F S2x32 .f32 := broadcastInDim S2x32 ![] bcast_S_S2x32 main_cst_16
  let main_v46 : IVec S2x32 1 := cmpf .olt main_v44 main_v45
  let main_c_17 : IVec S_ 1 := constantI S_ 1 1#1
  let main_v47 : IVec S_ 1 := (fun x v => Host.reduce IntOp.andi x v reducesTo_S2x32_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S32 .f32) (main_arg6 : FVec F S2x42x32 .f32) (main_arg7 : FVec F S32 .f32) (main_arg8 : FVec F S2x42x32 .f32) (main_arg9 : FVec F S32 .f32) (main_arg10 : FVec F S2x32 .f32) (main_arg11 : FVec F S2 .f32) (main_v13 : IVec S_ 1) (main_v16 : IVec S2x42x32 1) : IVec S_ 1 :=
  let main_c_5 : IVec S_ 1 := constantI S_ 1 1#1
  let main_v17 : IVec S_ 1 := (fun x v => Host.reduce IntOp.andi x v reducesTo_S2x42x32_S_d0_1_2 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S2x42x32 .f32 := Host.absf main_arg6
  let main_cst_8 : FVec F S_ .f32 := constant S_ .f32 0x7F800000#32
  let main_v25 : FVec F S2x42x32 .f32 := broadcastInDim S2x42x32 ![] bcast_S_S2x42x32 main_cst_8
  let main_v26 : IVec S2x42x32 1 := cmpf .olt main_v24 main_v25
  let main_c_9 : IVec S_ 1 := constantI S_ 1 1#1
  let main_v27 : IVec S_ 1 := (fun x v => Host.reduce IntOp.andi x v reducesTo_S2x42x32_S_d0_1_2 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S500000x10 .f32) (main_arg1 : IVec S2x8000000 32) (main_arg2 : FVec F S8000000 .f32) (main_arg3 : FVec F S500000x32 .f32) (main_arg4 : FVec F S2x42x32 .f32) (main_arg5 : FVec F S32 .f32) (main_arg6 : FVec F S2x42x32 .f32) (main_arg7 : FVec F S32 .f32) (main_arg8 : FVec F S2x42x32 .f32) (main_arg9 : FVec F S32 .f32) (main_arg10 : FVec F S2x32 .f32) (main_arg11 : FVec F S2 .f32) : IVec S_ 1 :=
  let main_v0 : FVec F S500000x10 .f32 := Host.absf main_arg0
  let main_cst : FVec F S_ .f32 := constant S_ .f32 0x7F800000#32
  let main_v1 : FVec F S500000x10 .f32 := broadcastInDim S500000x10 ![] bcast_S_S500000x10 main_cst
  let main_v2 : IVec S500000x10 1 := cmpf .olt main_v0 main_v1
  let main_c : IVec S_ 1 := constantI S_ 1 1#1
  let main_v3 : IVec S_ 1 := (fun x v => Host.reduce IntOp.andi x v reducesTo_S500000x10_S_d0_1 h_S_) main_v2 main_c
  let main_v4 : FVec F S8000000 .f32 := Host.absf main_arg2
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_v9 : FVec F S500000x32 .f32 := Host.absf main_arg3
  let main_cst_2 : FVec F S_ .f32 := constant S_ .f32 0x7F800000#32
  let main_v10 : FVec F S500000x32 .f32 := broadcastInDim S500000x32 ![] bcast_S_S500000x32 main_cst_2
  let main_v11 : IVec S500000x32 1 := cmpf .olt main_v9 main_v10
  let main_c_3 : IVec S_ 1 := constantI S_ 1 1#1
  let main_v12 : IVec S_ 1 := (fun x v => Host.reduce IntOp.andi x v reducesTo_S500000x32_S_d0_1 h_S_) main_v11 main_c_3
  let main_v13 : IVec S_ 1 := andi main_v8 main_v12
  let main_v14 : FVec F S2x42x32 .f32 := Host.absf main_arg4
  let main_cst_4 : FVec F S_ .f32 := constant S_ .f32 0x7F800000#32
  let main_v15 : FVec F S2x42x32 .f32 := broadcastInDim S2x42x32 ![] bcast_S_S2x42x32 main_cst_4
  let main_v16 : IVec S2x42x32 1 := cmpf .olt main_v14 main_v15
  fn_part1 (F := F) main_arg5 main_arg6 main_arg7 main_arg8 main_arg9 main_arg10 main_arg11 main_v13 main_v16
-- ==== Kernel.lean ====
abbrev S500000x10 : Shape := ⟨2, ![500000, 10]⟩
abbrev S2x8000000 : Shape := ⟨2, ![2, 8000000]⟩
abbrev S8000000 : Shape := ⟨1, ![8000000]⟩
abbrev S500000x32 : Shape := ⟨2, ![500000, 32]⟩
abbrev S2x42x32 : Shape := ⟨3, ![2, 42, 32]⟩
abbrev S32 : Shape := ⟨1, ![32]⟩
abbrev S2x32 : Shape := ⟨2, ![2, 32]⟩
abbrev S2 : Shape := ⟨1, ![2]⟩
abbrev S1x42x32 : Shape := ⟨3, ![1, 42, 32]⟩
abbrev S42x32 : Shape := ⟨2, ![42, 32]⟩
abbrev S10x32 : Shape := ⟨2, ![10, 32]⟩
abbrev S32x32 : Shape := ⟨2, ![32, 32]⟩
abbrev S1x32 : Shape := ⟨2, ![1, 32]⟩
abbrev S32x2 : Shape := ⟨2, ![32, 2]⟩
abbrev S1x2 : Shape := ⟨2, ![1, 2]⟩
abbrev S500000x2 : Shape := ⟨2, ![500000, 2]⟩
abbrev S5000x10 : Shape := ⟨2, ![5000, 10]⟩
abbrev S5000x32 : Shape := ⟨2, ![5000, 32]⟩
abbrev S5000x2 : Shape := ⟨2, ![5000, 2]⟩

abbrev nBuf : Space → Nat
  | .hbm => 47
  | .vmem => 19
  | .smem => 0
  | _ => 0

abbrev bufTy : (tb : Table) → Fin (tcTables nBuf tb) → BufTy
  | .hbm, ⟨0, _⟩ => ⟨S500000x10, .f32⟩
  | .hbm, ⟨1, _⟩ => ⟨S2x8000000, .i32⟩
  | .hbm, ⟨2, _⟩ => ⟨S8000000, .f32⟩
  | .hbm, ⟨3, _⟩ => ⟨S500000x32, .f32⟩
  | .hbm, ⟨4, _⟩ => ⟨S2x42x32, .f32⟩
  | .hbm, ⟨5, _⟩ => ⟨S32, .f32⟩
  | .hbm, ⟨6, _⟩ => ⟨S2x42x32, .f32⟩
  | .hbm, ⟨7, _⟩ => ⟨S32, .f32⟩
  | .hbm, ⟨8, _⟩ => ⟨S2x42x32, .f32⟩
  | .hbm, ⟨9, _⟩ => ⟨S32, .f32⟩
  | .hbm, ⟨10, _⟩ => ⟨S2x32, .f32⟩
  | .hbm, ⟨11, _⟩ => ⟨S2, .f32⟩
  | .hbm, ⟨12, _⟩ => ⟨S1x42x32, .f32⟩
  | .hbm, ⟨13, _⟩ => ⟨S42x32, .f32⟩
  | .hbm, ⟨14, _⟩ => ⟨S1x42x32, .f32⟩
  | .hbm, ⟨15, _⟩ => ⟨S42x32, .f32⟩
  | .hbm, ⟨16, _⟩ => ⟨S42x32, .f32⟩
  | .hbm, ⟨17, _⟩ => ⟨S1x42x32, .f32⟩
  | .hbm, ⟨18, _⟩ => ⟨S42x32, .f32⟩
  | .hbm, ⟨19, _⟩ => ⟨S1x42x32, .f32⟩
  | .hbm, ⟨20, _⟩ => ⟨S42x32, .f32⟩
  | .hbm, ⟨21, _⟩ => ⟨S42x32, .f32⟩
  | .hbm, ⟨22, _⟩ => ⟨S1x42x32, .f32⟩
  | .hbm, ⟨23, _⟩ => ⟨S42x32, .f32⟩
  | .hbm, ⟨24, _⟩ => ⟨S1x42x32, .f32⟩
  | .hbm, ⟨25, _⟩ => ⟨S42x32, .f32⟩
  | .hbm, ⟨26, _⟩ => ⟨S42x32, .f32⟩
  | .hbm, ⟨27, _⟩ => ⟨S10x32, .f32⟩
  | .hbm, ⟨28, _⟩ => ⟨S32x32, .f32⟩
  | .hbm, ⟨29, _⟩ => ⟨S10x32, .f32⟩
  | .hbm, ⟨30, _⟩ => ⟨S32x32, .f32⟩
  | .hbm, ⟨31, _⟩ => ⟨S10x32, .f32⟩
  | .hbm, ⟨32, _⟩ => ⟨S32x32, .f32⟩
  | .hbm, ⟨33, _⟩ => ⟨S10x32, .bf16⟩
  | .hbm, ⟨34, _⟩ => ⟨S32x32, .bf16⟩
  | .hbm, ⟨35, _⟩ => ⟨S10x32, .bf16⟩
  | .hbm, ⟨36, _⟩ => ⟨S32x32, .bf16⟩
  | .hbm, ⟨37, _⟩ => ⟨S10x32, .bf16⟩
  | .hbm, ⟨38, _⟩ => ⟨S32x32, .bf16⟩
  | .hbm, ⟨39, _⟩ => ⟨S1x32, .f32⟩
  | .hbm, ⟨40, _⟩ => ⟨S1x32, .f32⟩
  | .hbm, ⟨41, _⟩ => ⟨S1x32, .f32⟩
  | .hbm, ⟨42, _⟩ => ⟨S32x2, .f32⟩
  | .hbm, ⟨43, _⟩ => ⟨S32x2, .bf16⟩
  | .hbm, ⟨44, _⟩ => ⟨S1x2, .f32⟩
  | .hbm, ⟨45, _⟩ => ⟨S500000x32, .f32⟩
  | .hbm, ⟨46, _⟩ => ⟨S500000x2, .f32⟩
  | .local _ .vmem, ⟨0, _⟩ => ⟨S5000x10, .f32⟩
  | .local _ .vmem, ⟨1, _⟩ => ⟨S5000x10, .f32⟩
  | .local _ .vmem, ⟨2, _⟩ => ⟨S5000x32, .f32⟩
  | .local _ .vmem, ⟨3, _⟩ => ⟨S5000x32, .f32⟩
  | .local _ .vmem, ⟨4, _⟩ => ⟨S10x32, .bf16⟩
  | .local _ .vmem, ⟨5, _⟩ => ⟨S32x32, .bf16⟩
  | .local _ .vmem, ⟨6, _⟩ => ⟨S1x32, .f32⟩
  | .local _ .vmem, ⟨7, _⟩ => ⟨S10x32, .bf16⟩
  | .local _ .vmem, ⟨8, _⟩ => ⟨S32x32, .bf16⟩
  | .local _ .vmem, ⟨9, _⟩ => ⟨S1x32, .f32⟩
  | .local _ .vmem, ⟨10, _⟩ => ⟨S10x32, .bf16⟩
  | .local _ .vmem, ⟨11, _⟩ => ⟨S32x32, .bf16⟩
  | .local _ .vmem, ⟨12, _⟩ => ⟨S1x32, .f32⟩
  | .local _ .vmem, ⟨13, _⟩ => ⟨S32x2, .bf16⟩
  | .local _ .vmem, ⟨14, _⟩ => ⟨S1x2, .f32⟩
  | .local _ .vmem, ⟨15, _⟩ => ⟨S5000x32, .f32⟩
  | .local _ .vmem, ⟨16, _⟩ => ⟨S5000x32, .f32⟩
  | .local _ .vmem, ⟨17, _⟩ => ⟨S5000x2, .f32⟩
  | .local _ .vmem, ⟨18, _⟩ => ⟨S5000x2, .f32⟩
  | _, _ => ⟨S500000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x2 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5000x2 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x42x32_S1x42x32_0_0_0 : S2x42x32.Slices ![0, 0, 0] S1x42x32
  shapeCasts_S1x42x32_S42x32 : S1x42x32.ShapeCasts S42x32
  slices_S2x42x32_S1x42x32_1_0_0 : S2x42x32.Slices ![1, 0, 0] S1x42x32
  slices_S42x32_S10x32_0_0 : S42x32.Slices ![0, 0] S10x32
  slices_S42x32_S32x32_10_0 : S42x32.Slices ![10, 0] S32x32
  bitsLt_bf16_f32 : FTy.bits .bf16 < FTy.bits .f32
  shapeCasts_S32_S1x32 : S32.ShapeCasts S1x32
  transposes_S2x32_S32x2_1_0 : S2x32.Transposes [1, 0] S32x2
  shapeCasts_S2_S1x2 : S2.ShapeCasts S1x2
  inb_S5000x10_S5000x10_0_0 : ∀ a, (![0, 0] : Fin 2 → Nat) a + S5000x10.size a ≤ S5000x10.size a
  h_S5000x10 : 0 < S5000x10.numel
  inb_S5000x32_S5000x32_0_0 : ∀ a, (![0, 0] : Fin 2 → Nat) a + S5000x32.size a ≤ S5000x32.size a
  h_S5000x32 : 0 < S5000x32.numel
  inb_S10x32_S10x32_0_0 : ∀ a, (![0, 0] : Fin 2 → Nat) a + S10x32.size a ≤ S10x32.size a
  h_S10x32 : 0 < S10x32.numel
  shapeCasts_S10x32_S10x32 : S10x32.ShapeCasts S10x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x10_S10x32_S5000x32_1_0_0_1_n_n_wf : DotDims.WF S5000x10 S10x32 S5000x32 [1] [0] [0] [1] [] []
  dot_S5000x32_S32x32_S5000x32_1_0_0_1_n_n_wf : DotDims.WF S5000x32 S32x32 S5000x32 [1] [0] [0] [1] [] []
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S500000x10.size a
  hwx0_0 : ∀ i : grid0.Coords, EltTy.bits .f32 = 32 ∨ (Rect.block (s := S500000x10) S5000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S500000x32.size a
  hwx0_1 : ∀ i : grid0.Coords, EltTy.bits .f32 = 32 ∨ (Rect.block (s := S500000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x32.size a ≤ S10x32.size a
  hwx0_2 : ∀ i : grid0.Coords, EltTy.bits .bf16 = 32 ∨ (Rect.block (s := S10x32) S10x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .bf16 = 32 ∨ (Rect.block (s := S32x32) S32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x32.size a ≤ S10x32.size a
  hwx0_5 : ∀ i : grid0.Coords, EltTy.bits .bf16 = 32 ∨ (Rect.block (s := S10x32) S10x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .bf16 = 32 ∨ (Rect.block (s := S32x32) S32x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10x32.size a ≤ S10x32.size a
  hwx0_8 : ∀ i : grid0.Coords, EltTy.bits .bf16 = 32 ∨ (Rect.block (s := S10x32) S10x32.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .bf16 = 32 ∨ (Rect.block (s := S32x32) S32x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x2.size a ≤ S32x2.size a
  hwx0_11 : ∀ i : grid0.Coords, EltTy.bits .bf16 = 32 ∨ (Rect.block (s := S32x2) S32x2.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2.size a ≤ S1x2.size a
  hwx0_12 : ∀ i : grid0.Coords, EltTy.bits .f32 = 32 ∨ (Rect.block (s := S1x2) S1x2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x32.size a ≤ S500000x32.size a
  hwx0_13 : ∀ i : grid0.Coords, EltTy.bits .f32 = 32 ∨ (Rect.block (s := S500000x32) S5000x32.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x2.size a ≤ S500000x2.size a
  hwx0_14 : ∀ i : grid0.Coords, EltTy.bits .f32 = 32 ∨ (Rect.block (s := S500000x2) S5000x2.size (cc0_transform_14 i) (hinb0_14 i)).WholeWords (EltTy.packing .f32)

variable [Facts₀]

def dot_S5000x10_S10x32_S5000x32_1_0_0_1_n_n : DotDims S5000x10 S10x32 S5000x32 where
  lhsContracting := [1]
  rhsContracting := [0]
  lhsNonContracting := [0]
  rhsNonContracting := [1]
  lhsBatch := []
  rhsBatch := []
  wf := dot_S5000x10_S10x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_arg0) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S10x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S10x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S10x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S32x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v32) S1x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v33_0) S5000x32.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v33_1) S5000x2.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S500000x10 : Shape := ⟨2, ![500000, 10]⟩
abbrev S2x8000000 : Shape := ⟨2, ![2, 8000000]⟩
abbrev S8000000 : Shape := ⟨1, ![8000000]⟩
abbrev S500000x32 : Shape := ⟨2, ![500000, 32]⟩
abbrev S2x42x32 : Shape := ⟨3, ![2, 42, 32]⟩
abbrev S32 : Shape := ⟨1, ![32]⟩
abbrev S2x32 : Shape := ⟨2, ![2, 32]⟩
abbrev S2 : Shape := ⟨1, ![2]⟩
abbrev S500000x42 : Shape := ⟨2, ![500000, 42]⟩
abbrev S1x42x32 : Shape := ⟨3, ![1, 42, 32]⟩
abbrev S42x32 : Shape := ⟨2, ![42, 32]⟩
abbrev S1x32 : Shape := ⟨2, ![1, 32]⟩
abbrev S_ : Shape := ⟨0, ![]⟩
abbrev S32x2 : Shape := ⟨2, ![32, 2]⟩
abbrev S500000x2 : Shape := ⟨2, ![500000, 2]⟩
abbrev S1x2 : Shape := ⟨2, ![1, 2]⟩

abbrev nBuf : Space → Nat
  | .hbm => 73
  | .vmem => 0
  | .smem => 0
  | _ => 0

abbrev bufTy : (tb : Table) → Fin (tcTables nBuf tb) → BufTy
  | .hbm, ⟨0, _⟩ => ⟨S500000x10, .f32⟩
  | .hbm, ⟨1, _⟩ => ⟨S2x8000000, .i32⟩
  | .hbm, ⟨2, _⟩ => ⟨S8000000, .f32⟩
  | .hbm, ⟨3, _⟩ => ⟨S500000x32, .f32⟩
  | .hbm, ⟨4, _⟩ => ⟨S2x42x32, .f32⟩
  | .hbm, ⟨5, _⟩ => ⟨S32, .f32⟩
  | .hbm, ⟨6, _⟩ => ⟨S2x42x32, .f32⟩
  | .hbm, ⟨7, _⟩ => ⟨S32, .f32⟩
  | .hbm, ⟨8, _⟩ => ⟨S2x42x32, .f32⟩
  | .hbm, ⟨9, _⟩ => ⟨S32, .f32⟩
  | .hbm, ⟨10, _⟩ => ⟨S2x32, .f32⟩
  | .hbm, ⟨11, _⟩ => ⟨S2, .f32⟩
  | .hbm, ⟨12, _⟩ => ⟨S500000x42, .f32⟩
  | .hbm, ⟨13, _⟩ => ⟨S1x42x32, .f32⟩
  | .hbm, ⟨14, _⟩ => ⟨S42x32, .f32⟩
  | .hbm, ⟨15, _⟩ => ⟨S1x42x32, .f32⟩
  | .hbm, ⟨16, _⟩ => ⟨S42x32, .f32⟩
  | .hbm, ⟨17, _⟩ => ⟨S42x32, .f32⟩
  | .hbm, ⟨18, _⟩ => ⟨S500000x32, .f32⟩
  | .hbm, ⟨19, _⟩ => ⟨S1x32, .f32⟩
  | .hbm, ⟨20, _⟩ => ⟨S500000x32, .f32⟩
  | .hbm, ⟨21, _⟩ => ⟨S500000x32, .f32⟩
  | .hbm, ⟨22, _⟩ => ⟨S500000x32, .f32⟩
  | .hbm, ⟨23, _⟩ => ⟨S500000x32, .f32⟩
  | .hbm, ⟨24, _⟩ => ⟨S_, .f32⟩
  | .hbm, ⟨25, _⟩ => ⟨S500000x32, .f32⟩
  | .hbm, ⟨26, _⟩ => ⟨S500000x32, .f32⟩
  | .hbm, ⟨27, _⟩ => ⟨S_, .f32⟩
  | .hbm, ⟨28, _⟩ => ⟨S500000x32, .f32⟩
  | .hbm, ⟨29, _⟩ => ⟨S500000x32, .f32⟩
  | .hbm, ⟨30, _⟩ => ⟨S1x42x32, .f32⟩
  | .hbm, ⟨31, _⟩ => ⟨S42x32, .f32⟩
  | .hbm, ⟨32, _⟩ => ⟨S1x42x32, .f32⟩
  | .hbm, ⟨33, _⟩ => ⟨S42x32, .f32⟩
  | .hbm, ⟨34, _⟩ => ⟨S42x32, .f32⟩
  | .hbm, ⟨35, _⟩ => ⟨S500000x32, .f32⟩
  | .hbm, ⟨36, _⟩ => ⟨S1x32, .f32⟩
  | .hbm, ⟨37, _⟩ => ⟨S500000x32, .f32⟩
  | .hbm, ⟨38, _⟩ => ⟨S500000x32, .f32⟩
  | .hbm, ⟨39, _⟩ => ⟨S500000x32, .f32⟩
  | .hbm, ⟨40, _⟩ => ⟨S500000x32, .f32⟩
  | .hbm, ⟨41, _⟩ => ⟨S_, .f32⟩
  | .hbm, ⟨42, _⟩ => ⟨S500000x32, .f32⟩
  | .hbm, ⟨43, _⟩ => ⟨S500000x32, .f32⟩
  | .hbm, ⟨44, _⟩ => ⟨S_, .f32⟩
  | .hbm, ⟨45, _⟩ => ⟨S500000x32, .f32⟩
  | .hbm, ⟨46, _⟩ => ⟨S500000x32, .f32⟩
  | .hbm, ⟨47, _⟩ => ⟨S500000x32, .f32⟩
  | .hbm, ⟨48, _⟩ => ⟨S500000x42, .f32⟩
  | .hbm, ⟨49, _⟩ => ⟨S1x42x32, .f32⟩
  | .hbm, ⟨50, _⟩ => ⟨S42x32, .f32⟩
  | .hbm, ⟨51, _⟩ => ⟨S1x42x32, .f32⟩
  | .hbm, ⟨52, _⟩ => ⟨S42x32, .f32⟩
  | .hbm, ⟨53, _⟩ => ⟨S42x32, .f32⟩
  | .hbm, ⟨54, _⟩ => ⟨S500000x32, .f32⟩
  | .hbm, ⟨55, _⟩ => ⟨S1x32, .f32⟩
  | .hbm, ⟨56, _⟩ => ⟨S500000x32, .f32⟩
  | .hbm, ⟨57, _⟩ => ⟨S500000x32, .f32⟩
  | .hbm, ⟨58, _⟩ => ⟨S500000x32, .f32⟩
  | .hbm, ⟨59, _⟩ => ⟨S500000x32, .f32⟩
  | .hbm, ⟨60, _⟩ => ⟨S_, .f32⟩
  | .hbm, ⟨61, _⟩ => ⟨S500000x32, .f32⟩
  | .hbm, ⟨62, _⟩ => ⟨S500000x32, .f32⟩
  | .hbm, ⟨63, _⟩ => ⟨S500000x32, .f32⟩
  | .hbm, ⟨64, _⟩ => ⟨S500000x32, .f32⟩
  | .hbm, ⟨65, _⟩ => ⟨S_, .f32⟩
  | .hbm, ⟨66, _⟩ => ⟨S500000x32, .f32⟩
  | .hbm, ⟨67, _⟩ => ⟨S500000x32, .f32⟩
  | .hbm, ⟨68, _⟩ => ⟨S32x2, .f32⟩
  | .hbm, ⟨69, _⟩ => ⟨S500000x2, .f32⟩
  | .hbm, ⟨70, _⟩ => ⟨S1x2, .f32⟩
  | .hbm, ⟨71, _⟩ => ⟨S500000x2, .f32⟩
  | .hbm, ⟨72, _⟩ => ⟨S500000x2, .f32⟩
  | _, _ => ⟨S500000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  concatenates_S500000x10_S500000x32_S500000x42_d1 : Shape.Concatenates [S500000x10, S500000x32] S500000x42 1
  slices_S2x42x32_S1x42x32_0_0_0 : S2x42x32.Slices ![0, 0, 0] S1x42x32
  shapeCasts_S1x42x32_S42x32 : S1x42x32.ShapeCasts S42x32
  slices_S2x42x32_S1x42x32_1_0_0 : S2x42x32.Slices ![1, 0, 0] S1x42x32
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  transposes_S2x32_S32x2_1_0 : S2x32.Transposes [1, 0] S32x2
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  dot_S500000x42_S42x32_S500000x32_1_0_0_1_n_n_wf : DotDims.WF S500000x42 S42x32 S500000x32 [1] [0] [0] [1] [] []
  dot_S500000x32_S32x2_S500000x2_1_0_0_1_n_n_wf : DotDims.WF S500000x32 S32x2 S500000x2 [1] [0] [0] [1] [] []

variable [Facts₀]

def dot_S500000x42_S42x32_S500000x32_1_0_0_1_n_n : DotDims S500000x42 S42x32 S500000x32 where
  lhsContracting := [1]
  rhsContracting := [0]
  lhsNonContracting := [0]
  rhsNonContracting := [1]
  lhsBatch := []
  rhsBatch := []
  wf := dot_S500000x42_S42x32_S500000x32_1_0_0_1_n_n_wf
def dot_S500000x32_S32x2_S500000x2_1_0_0_1_n_n : DotDims S500000x32 S32x2 S500000x2 where
  lhsContracting := [1]
  rhsContracting := [0]
  lhsNonContracting := [0]
  rhsNonContracting := [1]
  lhsBatch := []
  rhsBatch := []
  wf := dot_S500000x32_S32x2_S500000x2_1_0_0_1_n_n_wf

class Facts : Prop extends Facts₀ where

variable [Facts]
-- ==== Proof.Spec.lean ====
/-
  One step of a gated recurrent unit on a graph whose diffusion has a single hop, followed by a rectified linear head,
  read at one row.

  A row of the input is x : [10] and of the state h : [32]. Each gate is an affine map of the joined row [x, h] : [42]
  by a weight matrix W : [42, 32] — the sum of the two diffusion directions' matrices — and a bias; with the matrix split
  into its first 10 rows Wx and its last 32 rows Wh the map at column j is
      lin x h Wx Wh b j = sum_k x[k] * Wx[k, j] + sum_k h[k] * Wh[k, j] + b[j].
  The update gate is z = logistic (lin x h ..), the reset gate r = logistic (lin x h ..), the candidate
  c = tanh (lin x (r * h) ..), and the new state z * h + (1 - z) * c. The head reads the rectified new state through a
  [2, 32] matrix and a bias. All of it on the extended reals; only associativity and commutativity of the sum are used
  to relate the joined and the split spelling, so no entry needs to be finite.
-/
import Idealize.ShloMosaic.PureOps.Ideal
import Idealize.ShloMosaic.Lib.ValueIdx
import Idealize.ShloMosaic.Lib.IdealHost

noncomputable section

open scoped BigOperators

namespace Cert.Gru

open Idealize.ShloMosaic Idealize.ShloMosaic.ValueIdx

/-- A gate's affine map of the row pair (x, h) at column j, the weights given as their x-rows and their h-rows. -/
def lin (xr : Fin 10 → EReal) (hr : Fin 32 → EReal) (Wx : Fin 10 → Fin 32 → EReal) (Wh : Fin 32 → Fin 32 → EReal)
    (b : Fin 32 → EReal) (j : Fin 32) : EReal :=
  (∑ k : Fin 10, xr k * Wx k j) + (∑ k : Fin 32, hr k * Wh k j) + b j

/-- The same map spelt over the joined row of width 42 and the whole matrix: the sum over 42 splits into the first 10
    and the last 32 terms. -/
theorem lin_joined (xr : Fin 10 → EReal) (hr : Fin 32 → EReal) (W : Fin 42 → Fin 32 → EReal) (b : Fin 32 → EReal) (j : Fin 32)
    (row : Fin 42 → EReal) (hx : ∀ k : Fin 10, row (Fin.castAdd 32 k) = xr k) (hh : ∀ k : Fin 32, row (Fin.natAdd 10 k) = hr k) :
    (∑ k : Fin 42, row k * W k j) + b j
      = lin xr hr (fun k => W (Fin.castAdd 32 k)) (fun k => W (Fin.natAdd 10 k)) b j := by
  unfold lin
  have h := Fin.sum_univ_add (M := EReal) (a := 10) (b := 32) (fun k : Fin (10 + 32) => row k * W k j)
  refine (congrArg (· + b j) h).trans ?_
  simp only [hx, hh]

/-- The new state's entry j of a row: z * h + (1 - z) * tanh (candidate), the one kept as the f32 pattern of 1.0. -/
def hnew (xr : Fin 10 → EReal) (hr : Fin 32 → EReal)
    (Wzx : Fin 10 → Fin 32 → EReal) (Wzh : Fin 32 → Fin 32 → EReal) (bz : Fin 32 → EReal)
    (Wrx : Fin 10 → Fin 32 → EReal) (Wrh : Fin 32 → Fin 32 → EReal) (br : Fin 32 → EReal)
    (Whx : Fin 10 → Fin 32 → EReal) (Whh : Fin 32 → Fin 32 → EReal) (bh : Fin 32 → EReal) (j : Fin 32) : EReal :=
  Ideal.logistic (lin xr hr Wzx Wzh bz j) * hr j
    + (Ideal.ofBits .f32 0x3F800000#32 - Ideal.logistic (lin xr hr Wzx Wzh bz j))
      * Ideal.tanh (lin xr (fun k => Ideal.logistic (lin xr hr Wrx Wrh br k) * hr k) Whx Whh bh j)

/-- The head's entry o of a row: the rectified new state through the head's matrix (given as [32, 2]) plus its bias. -/
def head (hn : Fin 32 → EReal) (Wl : Fin 32 → Fin 2 → EReal) (bl : Fin 2 → EReal) (o : Fin 2) : EReal :=
  (∑ k : Fin 32, max (hn k) (Ideal.ofBits .f32 0x00000000#32) * Wl k o) + bl o

/-! ## The two results as functions of the argument arrays -/

/-- A gate's weight matrix: the two diffusion directions' matrices added, at (k, j). -/
def Wsum (W : FVec Ideal ⟨3, ![2, 42, 32]⟩ .f32) (k : Fin 42) (j : Fin 32) : EReal :=
  W (ix3 (0 : Fin 2) k j) + W (ix3 (1 : Fin 2) k j)

/-- The new state at node n, entry j: `hnew` of rows n of the input and the state, each gate's matrix split into its
    first 10 and last 32 rows. -/
def newState (X : FVec Ideal ⟨2, ![500000, 10]⟩ .f32) (H : FVec Ideal ⟨2, ![500000, 32]⟩ .f32)
    (Wz : FVec Ideal ⟨3, ![2, 42, 32]⟩ .f32) (bz : FVec Ideal ⟨1, ![32]⟩ .f32)
    (Wr : FVec Ideal ⟨3, ![2, 42, 32]⟩ .f32) (br : FVec Ideal ⟨1, ![32]⟩ .f32)
    (Wh : FVec Ideal ⟨3, ![2, 42, 32]⟩ .f32) (bh : FVec Ideal ⟨1, ![32]⟩ .f32) (n : Fin 500000) (j : Fin 32) : EReal :=
  hnew (fun k => X (ix2 n k)) (fun k => H (ix2 n k))
    (fun k => Wsum Wz (Fin.castAdd 32 k)) (fun k => Wsum Wz (Fin.natAdd 10 k)) (fun q => bz (ix1 q))
    (fun k => Wsum Wr (Fin.castAdd 32 k)) (fun k => Wsum Wr (Fin.natAdd 10 k)) (fun q => br (ix1 q))
    (fun k => Wsum Wh (Fin.castAdd 32 k)) (fun k => Wsum Wh (Fin.natAdd 10 k)) (fun q => bh (ix1 q)) j

/-- The new-state array [500000, 32]. -/
def GH (X : FVec Ideal ⟨2, ![500000, 10]⟩ .f32) (H : FVec Ideal ⟨2, ![500000, 32]⟩ .f32)
    (Wz : FVec Ideal ⟨3, ![2, 42, 32]⟩ .f32) (bz : FVec Ideal ⟨1, ![32]⟩ .f32)
    (Wr : FVec Ideal ⟨3, ![2, 42, 32]⟩ .f32) (br : FVec Ideal ⟨1, ![32]⟩ .f32)
    (Wh : FVec Ideal ⟨3, ![2, 42, 32]⟩ .f32) (bh : FVec Ideal ⟨1, ![32]⟩ .f32) : FVec Ideal ⟨2, ![500000, 32]⟩ .f32 :=
  fun i => newState X H Wz bz Wr br Wh bh (i 0) (i 1)

/-- The head's array [500000, 2]: the head of each node's new state, its matrix given as [2, 32]. -/
def GO (X : FVec Ideal ⟨2, ![500000, 10]⟩ .f32) (H : FVec Ideal ⟨2, ![500000, 32]⟩ .f32)
    (Wz : FVec Ideal ⟨3, ![2, 42, 32]⟩ .f32) (bz : FVec Ideal ⟨1, ![32]⟩ .f32)
    (Wr : FVec Ideal ⟨3, ![2, 42, 32]⟩ .f32) (br : FVec Ideal ⟨1, ![32]⟩ .f32)
    (Wh : FVec Ideal ⟨3, ![2, 42, 32]⟩ .f32) (bh : FVec Ideal ⟨1, ![32]⟩ .f32)
    (Wl : FVec Ideal ⟨2, ![2, 32]⟩ .f32) (bl : FVec Ideal ⟨1, ![2]⟩ .f32) : FVec Ideal ⟨2, ![500000, 2]⟩ .f32 :=
  fun i => head (fun k => newState X H Wz bz Wr br Wh bh (i 0) k) (fun k o => Wl (ix2 o k)) (fun o => bl (ix1 o)) (i 1)

end Cert.Gru

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.Tile.lean ====
/-
  A gate's affine map computed on a tile of T rows: two matrix products into zero accumulators — the tile's x-rows
  with the weight's x-part [10, 32], and a second operand's rows (the state's, or the reset state's) with the weight's
  h-part [32, 32] — added, plus a one-row bias broadcast along the rows. At the ideal values each product is the plain
  sum over the contracted coordinate, so the entry at (p, j) is `lin` of row p of the two operands.
-/
import proofs.«174881_j37391985279605_2_alg».proof.Proof.Spec
import proofs.«174881_j37391985279605_2_alg».proof.Proof.LibMlpAt
import Idealize.ShloMosaic.Lib.ValueLayout

noncomputable section

open scoped BigOperators

namespace Cert.Gru

open Idealize.ShloMosaic Idealize.ShloMosaic.ValueIdx
open Cert.Mlp (D2 matmul_zero_at)

/-- The gate's pre-activation on a tile, at (p, j). -/
theorem gateTile_at {T : Nat}
    (wA : DotDims.WF ⟨2, ![T, 10]⟩ ⟨2, ![10, 32]⟩ ⟨2, ![T, 32]⟩ [1] [0] [0] [1] [] [])
    (wB : DotDims.WF ⟨2, ![T, 32]⟩ ⟨2, ![32, 32]⟩ ⟨2, ![T, 32]⟩ [1] [0] [0] [1] [] [])
    (hb : (⟨2, ![1, 32]⟩ : Shape).Broadcasts ⟨2, ![T, 32]⟩)
    (u : FVec Ideal ⟨2, ![T, 10]⟩ .bf16) (y : FVec Ideal ⟨2, ![T, 32]⟩ .bf16)
    (wx : FVec Ideal ⟨2, ![10, 32]⟩ .bf16) (wh : FVec Ideal ⟨2, ![32, 32]⟩ .bf16) (b : FVec Ideal ⟨2, ![1, 32]⟩ .f32)
    (p : Fin T) (j : Fin 32) :
    addf (addf (matmul (D2 wA) none u wx (constant ⟨2, ![T, 32]⟩ .f32 0x00000000#32))
        (matmul (D2 wB) none y wh (constant ⟨2, ![T, 32]⟩ .f32 0x00000000#32)))
      (broadcastTo ⟨2, ![T, 32]⟩ b hb) (ix2 p j)
      = lin (fun k => u (ix2 p k)) (fun k => y (ix2 p k)) (fun k q => wx (ix2 k q)) (fun k q => wh (ix2 k q))
          (fun q => b (ix2 (0 : Fin 1) q)) j := by
  unfold lin
  rw [addf_apply, addf_apply, matmul_zero_at, matmul_zero_at, broadcastTo_1b_ab_apply]

/-- The head on a tile, at (p, o): the product of the rectified state's rows with the head's matrix [32, 2] into a zero
    accumulator, plus the one-row bias. -/
theorem headTile_at {T : Nat}
    (wC : DotDims.WF ⟨2, ![T, 32]⟩ ⟨2, ![32, 2]⟩ ⟨2, ![T, 2]⟩ [1] [0] [0] [1] [] [])
    (hb : (⟨2, ![1, 2]⟩ : Shape).Broadcasts ⟨2, ![T, 2]⟩)
    (s : FVec Ideal ⟨2, ![T, 32]⟩ .f32) (wl : FVec Ideal ⟨2, ![32, 2]⟩ .bf16) (b : FVec Ideal ⟨2, ![1, 2]⟩ .f32)
    (hlt : FTy.bf16.bits < FTy.f32.bits) (p : Fin T) (o : Fin 2) :
    addf (matmul (D2 wC) none
        (truncf .bf16 (maximumf s (broadcast ⟨2, ![T, 32]⟩ (Scalar.ofBits (F := Ideal) .f32 0x00000000#32))) hlt) wl
        (constant ⟨2, ![T, 2]⟩ .f32 0x00000000#32))
      (broadcastTo ⟨2, ![T, 2]⟩ b hb) (ix2 p o)
      = head (fun k => s (ix2 p k)) (fun k q => wl (ix2 k q)) (fun q => b (ix2 (0 : Fin 1) q)) o := by
  unfold head
  rw [addf_apply, matmul_zero_at, broadcastTo_1b_ab_apply]
  rfl

end Cert.Gru

end
-- ==== Proof.KernelBody.lean ====
/-
  What the kernel's body computes on one tile of 5000 rows, read at an entry.

  The body loads the tile's rows of the input x : [5000, 10] and of the state h : [5000, 32], the three gates' weights
  (each as an x-part [10, 32] and an h-part [32, 32]) and one-row biases, and the head's matrix [32, 2] and bias. It forms
  the update gate z and the reset gate's pre-activation by two matrix products each, the candidate from x and r * h, the
  new state z * h + (1 - z) * tanh (candidate), and the head of the rectified new state. Narrowing to bf16 is the
  identity at the ideal values, and a shape cast to the same shape is the identity, so entry (p, j) of the stored new
  state is `hnew` of row p, and entry (p, o) of the stored head is `head` of row p's new state.
-/
import proofs.«174881_j37391985279605_2_alg».proof.Proof.Gen.KernelIdeal.Frame
import proofs.«174881_j37391985279605_2_alg».proof.Proof.Tile
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Gru

/-- The update gate on the tile, at (p, j). -/
theorem gate_z_at (v0 : Vec Ideal S5000x10 .f32) (v1 : Vec Ideal S5000x32 .f32) (v4 : Vec Ideal S10x32 .bf16)
    (v6 : Vec Ideal S32x32 .bf16) (v21 : Vec Ideal S1x32 .f32) (p : Fin 5000) (j : Fin 32) :
    k0_pay9 (F := Ideal) v0 v1 v4 v6 v21 (ix2 p j)
      = Ideal.logistic (lin (fun k => v0 (ix2 p k)) (fun k => v1 (ix2 p k)) (fun k q => v4 (ix2 k q))
          (fun k q => v6 (ix2 k q)) (fun q => v21 (ix2 (0 : Fin 1) q)) j) := by
  unfold k0_pay9 k0_pay3 k0_pay4
  simp only [shapeCast_self]
  exact congrArg Ideal.logistic (gateTile_at _ _ _ _ _ _ _ _ p j)

/-- The reset gate's pre-activation on the tile, at (p, j). -/
theorem gate_r_at (v0 : Vec Ideal S5000x10 .f32) (v1 : Vec Ideal S5000x32 .f32) (v8 : Vec Ideal S10x32 .bf16)
    (v10 : Vec Ideal S32x32 .bf16) (v28 : Vec Ideal S1x32 .f32) (p : Fin 5000) (j : Fin 32) :
    k0_pay8 (F := Ideal) v0 v1 v8 v10 v28 (ix2 p j)
      = lin (fun k => v0 (ix2 p k)) (fun k => v1 (ix2 p k)) (fun k q => v8 (ix2 k q))
          (fun k q => v10 (ix2 k q)) (fun q => v28 (ix2 (0 : Fin 1) q)) j := by
  unfold k0_pay8 k0_pay3 k0_pay4
  simp only [shapeCast_self]
  exact gateTile_at _ _ _ _ _ _ _ _ p j

/-- The stored new state from the gates' values, at (p, j). -/
theorem state_at (v1 : Vec Ideal S5000x32 .f32) (v2 : FVec Ideal S5000x10 .bf16) (v13 : FVec Ideal S10x32 .bf16)
    (v15 : FVec Ideal S32x32 .bf16) (v31 v32 : FVec Ideal S5000x32 .f32) (v39 : Vec Ideal S1x32 .f32) (p : Fin 5000) (j : Fin 32) :
    k0_pay1 (F := Ideal) v1 v2 v13 v15 v31 v32 v39 (ix2 p j)
      = v32 (ix2 p j) * v1 (ix2 p j)
        + (Ideal.ofBits .f32 0x3F800000#32 - v32 (ix2 p j))
          * Ideal.tanh (lin (fun k => v2 (ix2 p k)) (fun k => Ideal.logistic (v31 (ix2 p k)) * v1 (ix2 p k))
              (fun k q => v13 (ix2 k q)) (fun k q => v15 (ix2 k q)) (fun q => v39 (ix2 (0 : Fin 1) q)) j) := by
  unfold k0_pay1
  simp only [shapeCast_self]
  refine congrArg (fun g => v32 (ix2 p j) * v1 (ix2 p j) + (Ideal.ofBits .f32 0x3F800000#32 - v32 (ix2 p j)) * Ideal.tanh g) ?_
  exact gateTile_at _ _ _ _ _ _ _ _ p j

/-- The stored head from the stored new state, at (p, o). -/
theorem head_at (v1 : Vec Ideal S5000x32 .f32) (v2 : FVec Ideal S5000x10 .bf16) (v13 : FVec Ideal S10x32 .bf16)
    (v15 : FVec Ideal S32x32 .bf16) (v17 : FVec Ideal S32x2 .bf16) (v31 v32 : FVec Ideal S5000x32 .f32)
    (v39 : Vec Ideal S1x32 .f32) (v53 : Vec Ideal S1x2 .f32) (p : Fin 5000) (o : Fin 2) :
    k0_pay2 (F := Ideal) v1 v2 v13 v15 v17 v31 v32 v39 v53 (ix2 p o)
      = head (fun k => k0_pay1 (F := Ideal) v1 v2 v13 v15 v31 v32 v39 (ix2 p k)) (fun k q => v17 (ix2 k q))
          (fun q => v53 (ix2 (0 : Fin 1) q)) o := by
  unfold k0_pay2
  simp only [shapeCast_self]
  exact headTile_at _ _ _ _ _ _ p o

theorem zero_offsets : (![0, 0] : Fin 2 → Nat) = fun _ => 0 := funext fun a => by fin_cases a <;> rfl

/-- The new-state buffer the body leaves, from the windows' blocks, at (p, j): `hnew` of row p of the x- and the
    h-block, the weights' blocks read whole. -/
theorem state_buffer_at (x0 : Vec Ideal S5000x10 .f32) (x1 : Vec Ideal S5000x32 .f32) (x2 : Vec Ideal S10x32 .bf16)
    (x3 : Vec Ideal S32x32 .bf16) (x4 : Vec Ideal S1x32 .f32) (x5 : Vec Ideal S10x32 .bf16) (x6 : Vec Ideal S32x32 .bf16)
    (x7 : Vec Ideal S1x32 .f32) (x8 : Vec Ideal S10x32 .bf16) (x9 : Vec Ideal S32x32 .bf16) (x10 : Vec Ideal S1x32 .f32)
    (x11 : Vec Ideal S32x2 .bf16) (x12 : Vec Ideal S1x2 .f32) (p : Fin 5000) (j : Fin 32) :
    out0_13 (F := Ideal) x0 x1 x2 x3 x4 x5 x6 x7 x8 x9 x10 x11 x12 (ix2 p j)
      = hnew (fun k => x0 (ix2 p k)) (fun k => x1 (ix2 p k))
          (fun k q => x2 (ix2 k q)) (fun k q => x3 (ix2 k q)) (fun q => x4 (ix2 (0 : Fin 1) q))
          (fun k q => x5 (ix2 k q)) (fun k q => x6 (ix2 k q)) (fun q => x7 (ix2 (0 : Fin 1) q))
          (fun k q => x8 (ix2 k q)) (fun k q => x9 (ix2 k q)) (fun q => x10 (ix2 (0 : Fin 1) q)) j := by
  unfold out0_13
  rw [View.canon_unit_zero zero_offsets]
  simp only [View.ld_unit_zero (S := S5000x10) zero_offsets, View.ld_unit_zero (S := S5000x32) zero_offsets,
    View.ld_unit_zero (S := S10x32) zero_offsets, View.ld_unit_zero (S := S32x32) zero_offsets,
    View.ld_unit_zero (S := S1x32) zero_offsets]
  rw [state_at, gate_z_at]
  simp only [gate_r_at]
  unfold hnew k0_pay3 k0_pay5 k0_pay6
  simp only [shapeCast_self]
  rfl

/-- The head buffer the body leaves, at (p, o): `head` of row p's new state. -/
theorem head_buffer_at (x0 : Vec Ideal S5000x10 .f32) (x1 : Vec Ideal S5000x32 .f32) (x2 : Vec Ideal S10x32 .bf16)
    (x3 : Vec Ideal S32x32 .bf16) (x4 : Vec Ideal S1x32 .f32) (x5 : Vec Ideal S10x32 .bf16) (x6 : Vec Ideal S32x32 .bf16)
    (x7 : Vec Ideal S1x32 .f32) (x8 : Vec Ideal S10x32 .bf16) (x9 : Vec Ideal S32x32 .bf16) (x10 : Vec Ideal S1x32 .f32)
    (x11 : Vec Ideal S32x2 .bf16) (x12 : Vec Ideal S1x2 .f32) (p : Fin 5000) (o : Fin 2) :
    out0_14 (F := Ideal) x0 x1 x2 x3 x4 x5 x6 x7 x8 x9 x10 x11 x12 (ix2 p o)
      = head (fun j => hnew (fun k => x0 (ix2 p k)) (fun k => x1 (ix2 p k))
          (fun k q => x2 (ix2 k q)) (fun k q => x3 (ix2 k q)) (fun q => x4 (ix2 (0 : Fin 1) q))
          (fun k q => x5 (ix2 k q)) (fun k q => x6 (ix2 k q)) (fun q => x7 (ix2 (0 : Fin 1) q))
          (fun k q => x8 (ix2 k q)) (fun k q => x9 (ix2 k q)) (fun q => x10 (ix2 (0 : Fin 1) q)) j)
          (fun k q => x11 (ix2 k q)) (fun q => x12 (ix2 (0 : Fin 1) q)) o := by
  have hs := state_buffer_at x0 x1 x2 x3 x4 x5 x6 x7 x8 x9 x10 x11 x12 p
  unfold out0_13 at hs
  rw [View.canon_unit_zero zero_offsets] at hs
  unfold out0_14
  rw [View.canon_unit_zero zero_offsets, head_at]
  unfold k0_pay7
  simp only [View.ld_unit_zero (S := S32x2) zero_offsets, shapeCast_self]
  simp only [hs]
  rw [View.ld_unit_zero (S := S1x2) zero_offsets]

end Cert.KernelIdeal.Body

end
-- ==== Proof.Windows.lean ====
/-
  The arrays the host prepares for the kernel's windows, read at an entry.

  Before the kernel is launched the host adds each gate's two diffusion matrices [2, 42, 32] -> [42, 32], cuts the sum
  into its first 10 rows (the x-part) and its last 32 rows (the h-part), narrows both to bf16, views each bias [32] as
  one row [1, 32], transposes the head's matrix [2, 32] -> [32, 2] and narrows it, and views the head's bias [2] as
  [1, 2]. Narrowing is the identity at the ideal values; the rest only moves entries, so each prepared array at an entry
  is an entry (or a sum of two entries) of an argument.
-/
import proofs.«174881_j37391985279605_2_alg».proof.Proof.Gen.KernelIdeal.Frame
import proofs.«174881_j37391985279605_2_alg».proof.Proof.Spec
import Idealize.ShloMosaic.Lib.StableHlo.Run
import Idealize.ShloMosaic.Lib.ValueLayout
import Idealize.ShloMosaic.Lib.Pipeline.Value

noncomputable section

namespace Cert.Gru

open Idealize.ShloMosaic Idealize.ShloMosaic.ValueIdx

/-- A rank-3 array cut to its slab o along the leading axis reads, at (u, a, b), the source at (o, a, b). -/
theorem slab_at {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩)
    (u : Fin 1) (a : Fin n1) (b : Fin n2) (k : Fin n0) (hk : k.val = o) :
    extractStridedSlice ⟨3, ![1, n1, n2]⟩ ![o, 0, 0] X h (ix3 u a b) = X (ix3 k a b) :=
  extractStridedSlice_apply _ _ _ _ _ (fun ax => by
    match ax with
    | ⟨0, _⟩ => show k.val = o + u.val; omega
    | ⟨1, _⟩ => exact (Nat.zero_add _).symm
    | ⟨2, _⟩ => exact (Nat.zero_add _).symm)

/-- The two slabs of a gate's weights, each viewed as a matrix, added: `Wsum` at (k, q). -/
theorem slabs_added_at (W : FVec Ideal ⟨3, ![2, 42, 32]⟩ .f32)
    (s0 : (⟨3, ![2, 42, 32]⟩ : Shape).Slices ![0, 0, 0] ⟨3, ![1, 42, 32]⟩)
    (s1 : (⟨3, ![2, 42, 32]⟩ : Shape).Slices ![1, 0, 0] ⟨3, ![1, 42, 32]⟩)
    (hc : (⟨3, ![1, 42, 32]⟩ : Shape).ShapeCasts ⟨2, ![42, 32]⟩) (k : Fin 42) (q : Fin 32) :
    addf (shapeCast ⟨2, ![42, 32]⟩ (extractStridedSlice ⟨3, ![1, 42, 32]⟩ ![0, 0, 0] W s0) hc)
      (shapeCast ⟨2, ![42, 32]⟩ (extractStridedSlice ⟨3, ![1, 42, 32]⟩ ![1, 0, 0] W s1) hc) (ix2 k q) = Wsum W k q := by
  unfold Wsum
  rw [addf_apply, shapeCast_1ab_ab_apply, shapeCast_1ab_ab_apply,
    slab_at 0 W s0 0 k q (0 : Fin 2) rfl, slab_at 1 W s1 0 k q (1 : Fin 2) rfl]

/-- The first 10 rows of a [42, 32] matrix, narrowed: at (k, q) the matrix at row k. -/
theorem xpart_at (A : FVec Ideal ⟨2, ![42, 32]⟩ .f32) (h : (⟨2, ![42, 32]⟩ : Shape).Slices ![0, 0] ⟨2, ![10, 32]⟩)
    (hlt : FTy.bf16.bits < FTy.f32.bits) (k : Fin 10) (q : Fin 32) :
    (truncf .bf16 (extractStridedSlice ⟨2, ![10, 32]⟩ ![0, 0] A h) hlt : FVec Ideal ⟨2, ![10, 32]⟩ .bf16) (ix2 k q)
      = A (ix2 (Fin.castAdd 32 k) q) := by
  rw [truncf_apply]
  exact slice2_axis0_apply 0 A h k q (Fin.castAdd 32 k) (by simp)

/-- The last 32 rows of a [42, 32] matrix, narrowed: at (k, q) the matrix at row 10 + k. -/
theorem hpart_at (A : FVec Ideal ⟨2, ![42, 32]⟩ .f32) (h : (⟨2, ![42, 32]⟩ : Shape).Slices ![10, 0] ⟨2, ![32, 32]⟩)
    (hlt : FTy.bf16.bits < FTy.f32.bits) (k : Fin 32) (q : Fin 32) :
    (truncf .bf16 (extractStridedSlice ⟨2, ![32, 32]⟩ ![10, 0] A h) hlt : FVec Ideal ⟨2, ![32, 32]⟩ .bf16) (ix2 k q)
      = A (ix2 (Fin.natAdd 10 k) q) := by
  rw [truncf_apply]
  exact slice2_axis0_apply 10 A h k q (Fin.natAdd 10 k) (by simp)

end Cert.Gru

namespace Cert.KernelIdeal.Windows

open Cert.KernelIdeal Cert.KernelIdeal.Gen Idealize.ShloMosaic Idealize.ShloMosaic.TcCoe Idealize.SL.Sem
open Idealize.ShloMosaic.ValueIdx Cert.Gru

variable (m : (ℓ : Loc nD τ sig) → Buf (Elt Ideal) ℓ)

/-- The summed matrix of a gate whose weights are the argument W, as the host's operations spell it. -/
abbrev summed (W : FVec Ideal S2x42x32 .f32) : FVec Ideal S42x32 .f32 :=
  addf (shapeCast S42x32 (extractStridedSlice S1x42x32 ![0, 0, 0] W slices_S2x42x32_S1x42x32_0_0_0) shapeCasts_S1x42x32_S42x32)
    (shapeCast S42x32 (extractStridedSlice S1x42x32 ![1, 0, 0] W slices_S2x42x32_S1x42x32_1_0_0) shapeCasts_S1x42x32_S42x32)

theorem V_zx (c : Dev nD) : (V m c main_v21 : S10x32.Idx → EReal)
    = truncf .bf16 (extractStridedSlice S10x32 ![0, 0] (summed (m ((c : Thread nD τ).loc main_arg4))) slices_S42x32_S10x32_0_0) bitsLt_bf16_f32 := by
  dsimp only [Gen.V, Gen.hostOps0]; after_results; rfl

theorem V_zh (c : Dev nD) : (V m c main_v22 : S32x32.Idx → EReal)
    = truncf .bf16 (extractStridedSlice S32x32 ![10, 0] (summed (m ((c : Thread nD τ).loc main_arg4))) slices_S42x32_S32x32_10_0) bitsLt_bf16_f32 := by
  dsimp only [Gen.V, Gen.hostOps0]; after_results; rfl

theorem V_rx (c : Dev nD) : (V m c main_v23 : S10x32.Idx → EReal)
    = truncf .bf16 (extractStridedSlice S10x32 ![0, 0] (summed (m ((c : Thread nD τ).loc main_arg6))) slices_S42x32_S10x32_0_0) bitsLt_bf16_f32 := by
  dsimp only [Gen.V, Gen.hostOps0]; after_results; rfl

theorem V_rh (c : Dev nD) : (V m c main_v24 : S32x32.Idx → EReal)
    = truncf .bf16 (extractStridedSlice S32x32 ![10, 0] (summed (m ((c : Thread nD τ).loc main_arg6))) slices_S42x32_S32x32_10_0) bitsLt_bf16_f32 := by
  dsimp only [Gen.V, Gen.hostOps0]; after_results; rfl

theorem V_hx (c : Dev nD) : (V m c main_v25 : S10x32.Idx → EReal)
    = truncf .bf16 (extractStridedSlice S10x32 ![0, 0] (summed (m ((c : Thread nD τ).loc main_arg8))) slices_S42x32_S10x32_0_0) bitsLt_bf16_f32 := by
  dsimp only [Gen.V, Gen.hostOps0]; after_results; rfl

theorem V_hh (c : Dev nD) : (V m c main_v26 : S32x32.Idx → EReal)
    = truncf .bf16 (extractStridedSlice S32x32 ![10, 0] (summed (m ((c : Thread nD τ).loc main_arg8))) slices_S42x32_S32x32_10_0) bitsLt_bf16_f32 := by
  dsimp only [Gen.V, Gen.hostOps0]; after_results; rfl

theorem V_bz (c : Dev nD) : (V m c main_v27 : S1x32.Idx → EReal)
    = shapeCast S1x32 (m ((c : Thread nD τ).loc main_arg5)) shapeCasts_S32_S1x32 := by
  dsimp only [Gen.V, Gen.hostOps0]; after_results; rfl

theorem V_br (c : Dev nD) : (V m c main_v28 : S1x32.Idx → EReal)
    = shapeCast S1x32 (m ((c : Thread nD τ).loc main_arg7)) shapeCasts_S32_S1x32 := by
  dsimp only [Gen.V, Gen.hostOps0]; after_results; rfl

theorem V_bh (c : Dev nD) : (V m c main_v29 : S1x32.Idx → EReal)
    = shapeCast S1x32 (m ((c : Thread nD τ).loc main_arg9)) shapeCasts_S32_S1x32 := by
  dsimp only [Gen.V, Gen.hostOps0]; after_results; rfl

theorem V_wl (c : Dev nD) : (V m c main_v31 : S32x2.Idx → EReal)
    = (truncf .bf16 (transpose S32x2 [1, 0] (m ((c : Thread nD τ).loc main_arg10) : FVec Ideal S2x32 .f32) transposes_S2x32_S32x2_1_0) bitsLt_bf16_f32 : FVec Ideal S32x2 .bf16) := by
  dsimp only [Gen.V, Gen.hostOps0]; after_results

theorem V_bl (c : Dev nD) : (V m c main_v32 : S1x2.Idx → EReal)
    = shapeCast S1x2 (m ((c : Thread nD τ).loc main_arg11)) shapeCasts_S2_S1x2 := by
  dsimp only [Gen.V, Gen.hostOps0]; after_results; rfl

end Cert.KernelIdeal.Windows

end
-- ==== Proof.Blocks.lean ====
/-
  From the tiles to the whole arrays.

  The kernel runs over 100 tiles of 5000 rows: tile t holds rows 5000 t .. 5000 t + 4999 of the input, of the state and
  of both results, while every weight and bias window holds its whole array at every tile. So what tile t writes back
  to the new-state array is rows 5000 t .. of `GH` of the arguments, and to the head's array the same rows of `GO`; the
  100 tiles cover all 500000 rows, so after the run the two result arrays are `GH` and `GO`.
-/
import proofs.«174881_j37391985279605_2_alg».proof.Proof.Gen.KernelIdeal.Value
import proofs.«174881_j37391985279605_2_alg».proof.Proof.KernelBody
import proofs.«174881_j37391985279605_2_alg».proof.Proof.Windows

noncomputable section

namespace Cert.KernelIdeal.Whole

open Cert.KernelIdeal Cert.KernelIdeal.Gen Idealize.ShloMosaic Idealize.ShloMosaic.TcCoe Idealize.SL.Sem
open Idealize.ShloMosaic.ValueIdx Cert.Gru Cert.KernelIdeal.Body Cert.KernelIdeal.Windows
open Idealize.ShloMosaic.Pipeline (Dat)

variable (m : (ℓ : Loc nD τ sig) → Buf (Elt Ideal) ℓ) (ρ : Dev nD → PrngReg)

/-! ## The index maps, decided over the 100 tiles -/

/-- The row windows (input, state, both results) are at block (t, 0) at tile t. -/
theorem row_windows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The weight and bias windows are at block (0, 0) at every tile. -/
theorem whole_windows : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

theorem tile_row_lt (t : Fin cfg0.N) (p : Fin 5000) : t.val * 5000 + p.val < 500000 := by
  have ht : t.val < 100 := t.isLt
  have hp := p.isLt
  omega

/-- Row p of tile t is row 5000 t + p of the whole array. -/
abbrev row (t : Fin cfg0.N) (p : Fin 5000) : Fin 500000 := ⟨t.val * 5000 + p.val, tile_row_lt t p⟩

/-! ## The windows' blocks at tile t, read at an entry -/

/-- The input's block at tile t holds rows 5000 t .. of the input. -/
theorem x_block_at (c : Dev nD) (t : Fin cfg0.N) (p : Fin 5000) (k : Fin 10) :
    iblk m c 0 t (ix2 p k) = m ((c : Thread nD τ).loc main_arg0) (ix2 (row t p) k) := by
  show V m c main_arg0 (((cfg0.win 0).blk t).view.emb (ix2 p k)) = _
  refine (congrFun (V_main_arg0 m c) _).trans (congrArg _ (funext fun a => Fin.ext ?_))
  obtain ⟨e0a, e0b, e1a, e1b, e13a, e13b, e14a, e14b⟩ := row_windows t
  match a with
  | ⟨0, _⟩ => show win0_0.index t (0 : Fin 2) * 5000 + 1 * p.val = t.val * 5000 + p.val; omega
  | ⟨1, _⟩ => show win0_0.index t (1 : Fin 2) * 10 + 1 * k.val = k.val; omega

/-- The state's block at tile t holds rows 5000 t .. of the state. -/
theorem h_block_at (c : Dev nD) (t : Fin cfg0.N) (p : Fin 5000) (k : Fin 32) :
    iblk m c 1 t (ix2 p k) = m ((c : Thread nD τ).loc main_arg3) (ix2 (row t p) k) := by
  show V m c main_arg3 (((cfg0.win 1).blk t).view.emb (ix2 p k)) = _
  refine (congrFun (V_main_arg3 m c) _).trans (congrArg _ (funext fun a => Fin.ext ?_))
  obtain ⟨e0a, e0b, e1a, e1b, e13a, e13b, e14a, e14b⟩ := row_windows t
  match a with
  | ⟨0, _⟩ => show win0_1.index t (0 : Fin 2) * 5000 + 1 * p.val = t.val * 5000 + p.val; omega
  | ⟨1, _⟩ => show win0_1.index t (1 : Fin 2) * 32 + 1 * k.val = k.val; omega

/-- The update gate's x-part: rows 0 .. 9 of its summed matrix. -/
theorem zx_block_at (c : Dev nD) (t : Fin cfg0.N) (k : Fin 10) (q : Fin 32) :
    iblk m c 2 t (ix2 k q) = Wsum (m ((c : Thread nD τ).loc main_arg4)) (Fin.castAdd 32 k) q := by
  show V m c main_v21 (((cfg0.win 2).blk t).view.emb (ix2 k q)) = _
  have he : ((cfg0.win 2).blk t).view.emb (ix2 k q) = ix2 k q := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_2.index t (0 : Fin 2) * 10 + 1 * k.val = k.val; omega
    | ⟨1, _⟩ => show win0_2.index t (1 : Fin 2) * 32 + 1 * q.val = q.val; omega)
  rw [he]
  refine (congrFun (V_zx m c) (ix2 k q)).trans ?_
  exact (xpart_at _ _ _ k q).trans (slabs_added_at _ _ _ _ _ q)

/-- The update gate's h-part: rows 10 .. 41 of its summed matrix. -/
theorem zh_block_at (c : Dev nD) (t : Fin cfg0.N) (k : Fin 32) (q : Fin 32) :
    iblk m c 3 t (ix2 k q) = Wsum (m ((c : Thread nD τ).loc main_arg4)) (Fin.natAdd 10 k) q := by
  show V m c main_v22 (((cfg0.win 3).blk t).view.emb (ix2 k q)) = _
  have he : ((cfg0.win 3).blk t).view.emb (ix2 k q) = ix2 k q := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_3.index t (0 : Fin 2) * 32 + 1 * k.val = k.val; omega
    | ⟨1, _⟩ => show win0_3.index t (1 : Fin 2) * 32 + 1 * q.val = q.val; omega)
  rw [he]
  refine (congrFun (V_zh m c) (ix2 k q)).trans ?_
  exact (hpart_at _ _ _ k q).trans (slabs_added_at _ _ _ _ _ q)

/-- The update gate's bias as one row. -/
theorem bz_block_at (c : Dev nD) (t : Fin cfg0.N) (q : Fin 32) :
    iblk m c 4 t (ix2 (0 : Fin 1) q) = m ((c : Thread nD τ).loc main_arg5) (ix1 q) := by
  show V m c main_v27 (((cfg0.win 4).blk t).view.emb (ix2 (0 : Fin 1) q)) = _
  have he : ((cfg0.win 4).blk t).view.emb (ix2 (0 : Fin 1) q) = ix2 (0 : Fin 1) q := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_4.index t (0 : Fin 2) * 1 + 1 * 0 = 0; omega
    | ⟨1, _⟩ => show win0_4.index t (1 : Fin 2) * 32 + 1 * q.val = q.val; omega)
  rw [he]
  refine (congrFun (V_bz m c) (ix2 (0 : Fin 1) q)).trans ?_
  exact shapeCast_a_1a_apply _ _ 0 q

/-- The reset gate's x-part. -/
theorem rx_block_at (c : Dev nD) (t : Fin cfg0.N) (k : Fin 10) (q : Fin 32) :
    iblk m c 5 t (ix2 k q) = Wsum (m ((c : Thread nD τ).loc main_arg6)) (Fin.castAdd 32 k) q := by
  show V m c main_v23 (((cfg0.win 5).blk t).view.emb (ix2 k q)) = _
  have he : ((cfg0.win 5).blk t).view.emb (ix2 k q) = ix2 k q := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_5.index t (0 : Fin 2) * 10 + 1 * k.val = k.val; omega
    | ⟨1, _⟩ => show win0_5.index t (1 : Fin 2) * 32 + 1 * q.val = q.val; omega)
  rw [he]
  refine (congrFun (V_rx m c) (ix2 k q)).trans ?_
  exact (xpart_at _ _ _ k q).trans (slabs_added_at _ _ _ _ _ q)

/-- The reset gate's h-part. -/
theorem rh_block_at (c : Dev nD) (t : Fin cfg0.N) (k : Fin 32) (q : Fin 32) :
    iblk m c 6 t (ix2 k q) = Wsum (m ((c : Thread nD τ).loc main_arg6)) (Fin.natAdd 10 k) q := by
  show V m c main_v24 (((cfg0.win 6).blk t).view.emb (ix2 k q)) = _
  have he : ((cfg0.win 6).blk t).view.emb (ix2 k q) = ix2 k q := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_6.index t (0 : Fin 2) * 32 + 1 * k.val = k.val; omega
    | ⟨1, _⟩ => show win0_6.index t (1 : Fin 2) * 32 + 1 * q.val = q.val; omega)
  rw [he]
  refine (congrFun (V_rh m c) (ix2 k q)).trans ?_
  exact (hpart_at _ _ _ k q).trans (slabs_added_at _ _ _ _ _ q)

/-- The reset gate's bias as one row. -/
theorem br_block_at (c : Dev nD) (t : Fin cfg0.N) (q : Fin 32) :
    iblk m c 7 t (ix2 (0 : Fin 1) q) = m ((c : Thread nD τ).loc main_arg7) (ix1 q) := by
  show V m c main_v28 (((cfg0.win 7).blk t).view.emb (ix2 (0 : Fin 1) q)) = _
  have he : ((cfg0.win 7).blk t).view.emb (ix2 (0 : Fin 1) q) = ix2 (0 : Fin 1) q := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_7.index t (0 : Fin 2) * 1 + 1 * 0 = 0; omega
    | ⟨1, _⟩ => show win0_7.index t (1 : Fin 2) * 32 + 1 * q.val = q.val; omega)
  rw [he]
  refine (congrFun (V_br m c) (ix2 (0 : Fin 1) q)).trans ?_
  exact shapeCast_a_1a_apply _ _ 0 q

/-- The candidate's x-part. -/
theorem hx_block_at (c : Dev nD) (t : Fin cfg0.N) (k : Fin 10) (q : Fin 32) :
    iblk m c 8 t (ix2 k q) = Wsum (m ((c : Thread nD τ).loc main_arg8)) (Fin.castAdd 32 k) q := by
  show V m c main_v25 (((cfg0.win 8).blk t).view.emb (ix2 k q)) = _
  have he : ((cfg0.win 8).blk t).view.emb (ix2 k q) = ix2 k q := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_8.index t (0 : Fin 2) * 10 + 1 * k.val = k.val; omega
    | ⟨1, _⟩ => show win0_8.index t (1 : Fin 2) * 32 + 1 * q.val = q.val; omega)
  rw [he]
  refine (congrFun (V_hx m c) (ix2 k q)).trans ?_
  exact (xpart_at _ _ _ k q).trans (slabs_added_at _ _ _ _ _ q)

/-- The candidate's h-part. -/
theorem hh_block_at (c : Dev nD) (t : Fin cfg0.N) (k : Fin 32) (q : Fin 32) :
    iblk m c 9 t (ix2 k q) = Wsum (m ((c : Thread nD τ).loc main_arg8)) (Fin.natAdd 10 k) q := by
  show V m c main_v26 (((cfg0.win 9).blk t).view.emb (ix2 k q)) = _
  have he : ((cfg0.win 9).blk t).view.emb (ix2 k q) = ix2 k q := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_9.index t (0 : Fin 2) * 32 + 1 * k.val = k.val; omega
    | ⟨1, _⟩ => show win0_9.index t (1 : Fin 2) * 32 + 1 * q.val = q.val; omega)
  rw [he]
  refine (congrFun (V_hh m c) (ix2 k q)).trans ?_
  exact (hpart_at _ _ _ k q).trans (slabs_added_at _ _ _ _ _ q)

/-- The candidate's bias as one row. -/
theorem bh_block_at (c : Dev nD) (t : Fin cfg0.N) (q : Fin 32) :
    iblk m c 10 t (ix2 (0 : Fin 1) q) = m ((c : Thread nD τ).loc main_arg9) (ix1 q) := by
  show V m c main_v29 (((cfg0.win 10).blk t).view.emb (ix2 (0 : Fin 1) q)) = _
  have he : ((cfg0.win 10).blk t).view.emb (ix2 (0 : Fin 1) q) = ix2 (0 : Fin 1) q := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_10.index t (0 : Fin 2) * 1 + 1 * 0 = 0; omega
    | ⟨1, _⟩ => show win0_10.index t (1 : Fin 2) * 32 + 1 * q.val = q.val; omega)
  rw [he]
  refine (congrFun (V_bh m c) (ix2 (0 : Fin 1) q)).trans ?_
  exact shapeCast_a_1a_apply _ _ 0 q

/-- The head's matrix, transposed by the host: at (k, o) the argument at (o, k). -/
theorem wl_block_at (c : Dev nD) (t : Fin cfg0.N) (k : Fin 32) (o : Fin 2) :
    iblk m c 11 t (ix2 k o) = m ((c : Thread nD τ).loc main_arg10) (ix2 o k) := by
  show V m c main_v31 (((cfg0.win 11).blk t).view.emb (ix2 k o)) = _
  have he : ((cfg0.win 11).blk t).view.emb (ix2 k o) = ix2 k o := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_11.index t (0 : Fin 2) * 32 + 1 * k.val = k.val; omega
    | ⟨1, _⟩ => show win0_11.index t (1 : Fin 2) * 2 + 1 * o.val = o.val; omega)
  rw [he]
  refine (congrFun (V_wl m c) (ix2 k o)).trans ?_
  exact transpose_ix2_apply _ _ k o

/-- The head's bias as one row. -/
theorem bl_block_at (c : Dev nD) (t : Fin cfg0.N) (o : Fin 2) :
    iblk m c 12 t (ix2 (0 : Fin 1) o) = m ((c : Thread nD τ).loc main_arg11) (ix1 o) := by
  show V m c main_v32 (((cfg0.win 12).blk t).view.emb (ix2 (0 : Fin 1) o)) = _
  have he : ((cfg0.win 12).blk t).view.emb (ix2 (0 : Fin 1) o) = ix2 (0 : Fin 1) o := funext fun a => Fin.ext (by
    obtain ⟨e2a, e2b, e3a, e3b, e4a, e4b, e5a, e5b, e6a, e6b, e7a, e7b, e8a, e8b, e9a, e9b, e10a, e10b, e11a, e11b, e12a, e12b⟩ := whole_windows t
    match a with
    | ⟨0, _⟩ => show win0_12.index t (0 : Fin 2) * 1 + 1 * 0 = 0; omega
    | ⟨1, _⟩ => show win0_12.index t (1 : Fin 2) * 2 + 1 * o.val = o.val; omega)
  rw [he]
  refine (congrFun (V_bl m c) (ix2 (0 : Fin 1) o)).trans ?_
  exact shapeCast_a_1a_apply _ _ 0 o

/-! ## What tile t writes back -/

/-- Entry y of tile t's new-state block is entry (5000 t + y 0, y 1) of the array. -/
theorem state_entry (t : Fin cfg0.N) (y : S5000x32.Idx) :
    ((cfg0.win 13).blk t).view.emb y = ix2 (row t (y 0)) (y 1) := funext fun a => Fin.ext (by
  obtain ⟨e0a, e0b, e1a, e1b, e13a, e13b, e14a, e14b⟩ := row_windows t
  match a with
  | ⟨0, _⟩ => show win0_13.index t (0 : Fin 2) * 5000 + 1 * (y 0).val = t.val * 5000 + (y 0).val; omega
  | ⟨1, _⟩ => show win0_13.index t (1 : Fin 2) * 32 + 1 * (y 1).val = (y 1).val; omega)

/-- Entry y of tile t's head block is entry (5000 t + y 0, y 1) of the array. -/
theorem head_entry (t : Fin cfg0.N) (y : S5000x2.Idx) :
    ((cfg0.win 14).blk t).view.emb y = ix2 (row t (y 0)) (y 1) := funext fun a => Fin.ext (by
  obtain ⟨e0a, e0b, e1a, e1b, e13a, e13b, e14a, e14b⟩ := row_windows t
  match a with
  | ⟨0, _⟩ => show win0_14.index t (0 : Fin 2) * 5000 + 1 * (y 0).val = t.val * 5000 + (y 0).val; omega
  | ⟨1, _⟩ => show win0_14.index t (1 : Fin 2) * 2 + 1 * (y 1).val = (y 1).val; omega)

/-- The new state of row p of tile t, from the windows' blocks, is the new state of row 5000 t + p of the arguments. -/
theorem tile_state (c : Dev nD) (t : Fin cfg0.N) (p : Fin 5000) (j : Fin 32) :
    hnew (fun k => iblk m c 0 t (ix2 p k)) (fun k => iblk m c 1 t (ix2 p k))
        (fun k q => iblk m c 2 t (ix2 k q)) (fun k q => iblk m c 3 t (ix2 k q)) (fun q => iblk m c 4 t (ix2 (0 : Fin 1) q))
        (fun k q => iblk m c 5 t (ix2 k q)) (fun k q => iblk m c 6 t (ix2 k q)) (fun q => iblk m c 7 t (ix2 (0 : Fin 1) q))
        (fun k q => iblk m c 8 t (ix2 k q)) (fun k q => iblk m c 9 t (ix2 k q)) (fun q => iblk m c 10 t (ix2 (0 : Fin 1) q)) j
      = newState (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t p) j := by
  unfold newState
  simp only [x_block_at, h_block_at, zx_block_at, zh_block_at, bz_block_at, rx_block_at, rh_block_at, br_block_at,
    hx_block_at, hh_block_at, bh_block_at]

/-- WHAT TILE t WRITES BACK to the new-state array: rows 5000 t .. of `GH` of the arguments. -/
theorem state_flushed (c : Dev nD) (t : Fin cfg0.N) :
    (dats m 0 c).flushed 13 t = ((cfg0.win 13).blk t).view.read (Elt Ideal) (GH (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed13]
  funext y
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = GH (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 13).blk t).view.emb y)
  rw [state_entry t y]
  have hb := state_buffer_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (y 0) (y 1)
  refine (congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (eq_ix2 (n0 := 5000) (n1 := 32) y)).trans ?_
  exact hb.trans (tile_state m c t (y 0) (y 1))

/-- WHAT TILE t WRITES BACK to the head's array: rows 5000 t .. of `GO` of the arguments. -/
theorem head_flushed (c : Dev nD) (t : Fin cfg0.N) :
    (dats m 0 c).flushed 14 t = ((cfg0.win 14).blk t).view.read (Elt Ideal) (GO (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  rw [Value.flushed14]
  funext y
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = GO (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 14).blk t).view.emb y)
  rw [head_entry t y]
  have hb := head_buffer_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (y 0) (y 1)
  refine (congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (eq_ix2 (n0 := 5000) (n1 := 2) y)).trans ?_
  refine hb.trans ?_
  show _ = head (fun k => newState (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t (y 0)) k) _ _ (y 1)
  simp only [wl_block_at, bl_block_at]
  exact congrArg (fun f => head f _ _ (y 1)) (funext fun j => tile_state m c t (y 0) j)

/-! ## The tiles cover the arrays -/

/-- An index of the new-state array is in tile t's block iff each coordinate is in the block's range on its axis. -/
theorem mem_state_block (t : Fin cfg0.N) (i : S500000x32.Idx) :
    i ∈ ((cfg0.win 13).blk t).view.set ↔ ∀ a : Fin 2, win0_13.index t a * S5000x32.size a ≤ (i a).val ∧ (i a).val < win0_13.index t a * S5000x32.size a + S5000x32.size a := by
  show i ∈ ((View.whole main_v33_0).slice (win0_13.rect t)).set ↔ _
  rw [View.set_slice_whole, Rect.mem_set_unit]
  exact Iff.rfl

/-- The same for the head's array. -/
theorem mem_head_block (t : Fin cfg0.N) (i : S500000x2.Idx) :
    i ∈ ((cfg0.win 14).blk t).view.set ↔ ∀ a : Fin 2, win0_14.index t a * S5000x2.size a ≤ (i a).val ∧ (i a).val < win0_14.index t a * S5000x2.size a + S5000x2.size a := by
  show i ∈ ((View.whole main_v33_1).slice (win0_14.rect t)).set ↔ _
  rw [View.set_slice_whole, Rect.mem_set_unit]
  exact Iff.rfl

/-- The tile that holds row r: r / 5000. -/
def tileOf (r : Fin 500000) : Fin cfg0.N := ⟨r.val / 5000, by
  have hr := r.isLt
  show r.val / 5000 < grid0.N
  rw [N_0]; omega⟩

theorem tileOf_val (r : Fin 500000) : (tileOf r).val = r.val / 5000 := rfl

/-- Every index of the new-state array lies in the block of the tile that holds its row. -/
theorem state_cover (i : S500000x32.Idx) :
    ∃ t : Fin cfg0.N, (cfg0.win 13).flush t = true ∧ i ∈ ((cfg0.win 13).blk t).view.set := by
  have hi0 : (i 0).val < 500000 := (i 0).isLt
  have hi1 : (i 1).val < 32 := (i 1).isLt
  obtain ⟨e0a, e0b, e1a, e1b, e13a, e13b, e14a, e14b⟩ := row_windows (tileOf (i 0))
  have ht := tileOf_val (i 0)
  refine ⟨tileOf (i 0), flush0_13 _, ?_⟩
  rw [mem_state_block]
  intro a
  match a with
  | ⟨0, _⟩ => show win0_13.index (tileOf (i 0)) (0 : Fin 2) * 5000 ≤ (i 0).val ∧ (i 0).val < win0_13.index (tileOf (i 0)) (0 : Fin 2) * 5000 + 5000; omega
  | ⟨1, _⟩ => show win0_13.index (tileOf (i 0)) (1 : Fin 2) * 32 ≤ (i 1).val ∧ (i 1).val < win0_13.index (tileOf (i 0)) (1 : Fin 2) * 32 + 32; omega

/-- Every index of the head's array lies in the block of the tile that holds its row. -/
theorem head_cover (i : S500000x2.Idx) :
    ∃ t : Fin cfg0.N, (cfg0.win 14).flush t = true ∧ i ∈ ((cfg0.win 14).blk t).view.set := by
  have hi0 : (i 0).val < 500000 := (i 0).isLt
  have hi1 : (i 1).val < 2 := (i 1).isLt
  obtain ⟨e0a, e0b, e1a, e1b, e13a, e13b, e14a, e14b⟩ := row_windows (tileOf (i 0))
  have ht := tileOf_val (i 0)
  refine ⟨tileOf (i 0), flush0_14 _, ?_⟩
  rw [mem_head_block]
  intro a
  match a with
  | ⟨0, _⟩ => show win0_14.index (tileOf (i 0)) (0 : Fin 2) * 5000 ≤ (i 0).val ∧ (i 0).val < win0_14.index (tileOf (i 0)) (0 : Fin 2) * 5000 + 5000; omega
  | ⟨1, _⟩ => show win0_14.index (tileOf (i 0)) (1 : Fin 2) * 2 ≤ (i 1).val ∧ (i 1).val < win0_14.index (tileOf (i 0)) (1 : Fin 2) * 2 + 2; omega

/-! ## The arrays after the run -/

/-- The new-state array after the run is `GH` of the arguments. -/
theorem state_final (c : Dev nD) : (dats m 0 c).arrAt 13 cfg0.N = GH (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 13 (GH (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => state_flushed m c t) state_cover

/-- The head's array after the run is `GO` of the arguments. -/
theorem head_final (c : Dev nD) : (dats m 0 c).arrAt 14 cfg0.N = GO (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 14 (GO (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (fun t _ => head_flushed m c t) head_cover

/-- The kernel's run: it terminates with the new-state array at `GH` and the head's array at `GO` of the arguments,
    the arguments unchanged. -/
theorem run : θ_run defs (onTc (τ := τ) (main (F := Ideal))) ⟨m, fun _ => 0, ρ⟩ fun r => ∀ c : Dev nD,
      r.2.mem ((c : Thread nD τ).loc main_v33_1) = GO (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v33_0) = GH (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).2.1.trans (head_final m c), (h c).1.trans (state_final m c), (h c).2.2⟩)
    (Value.run_blocks m ρ)

end Cert.KernelIdeal.Whole

end
-- ==== Proof.RefValue.lean ====
/-
  The reference program of the gated recurrent step, read at one entry.

  Every stage of the reference is an array; the reading lemmas of the imported module give a stage at an index from its operands
  at an index. Chained from the arguments upwards they turn the new-state array into the specification's `newState`
  and the head's array into the specification's `head`: a gate's weight matrix is the sum of the two slices of its
  [2, 42, 32] argument, a joined row [x, h] read below column 10 is x and from column 10 on is h, a gate's
  pre-activation is the sum over the 42 joined columns plus the bias (the specification's `lin` by `lin_joined`),
  and the expanded quotient 1 / (1 + exp (-v)) is the logistic function.
-/
import proofs.«174881_j37391985279605_2_alg».proof.Proof.Gen.ReferenceIdeal.Read
import proofs.«174881_j37391985279605_2_alg».proof.Proof.Spec
import Idealize.ShloMosaic.Lib.IdealHost
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.StableHlo

/-! ## Indices -/

/-- Entry (k, j) of a [42, 32] matrix, traced through the reshape from [1, 42, 32] and the slice at offset 0 of
    [2, 42, 32], is entry (0, k, j). -/
theorem idx_slice0 (k : Fin 42) (j : Fin 32) : idx_main_v1 (idx_main_v2 (ix2 k j)) = ix3 (0 : Fin 2) k j := by
  funext a
  have hk := k.isLt
  have hj := j.isLt
  match a with
  | ⟨0, _⟩ => exact Fin.ext rfl
  | ⟨1, _⟩ => exact Fin.ext (show (k.val * 32 + j.val) / 32 % 42 = k.val by omega)
  | ⟨2, _⟩ => exact Fin.ext (show (k.val * 32 + j.val) % 32 = j.val by omega)

/-- The same through the slice at offset 1: entry (1, k, j). -/
theorem idx_slice1 (k : Fin 42) (j : Fin 32) : idx_main_v3 (idx_main_v4 (ix2 k j)) = ix3 (1 : Fin 2) k j := by
  funext a
  have hk := k.isLt
  have hj := j.isLt
  match a with
  | ⟨0, _⟩ => exact Fin.ext rfl
  | ⟨1, _⟩ => exact Fin.ext (show (k.val * 32 + j.val) / 32 % 42 = k.val by omega)
  | ⟨2, _⟩ => exact Fin.ext (show (k.val * 32 + j.val) % 32 = j.val by omega)

/-- The left index of the contraction over the joined row: row n, column k. -/
theorem lidx_eq (n : Fin 500000) (j : Fin 32) (k : Fin 42) : lidx_main_v6 (ix2 n j) k = ix2 n k := by
  funext a
  match a with
  | ⟨0, _⟩ => rfl
  | ⟨1, _⟩ => rfl

/-- The right index of the contraction: row k, column j of the weight matrix. -/
theorem ridx_eq (n : Fin 500000) (j : Fin 32) (k : Fin 42) : ridx_main_v6 (ix2 n j) k = ix2 k j := by
  funext a
  match a with
  | ⟨0, _⟩ => rfl
  | ⟨1, _⟩ => rfl

/-- A bias of length 32 broadcast to [1, 32] and then to [500000, 32] reads entry j at (n, j). -/
theorem idx_bias (n : Fin 500000) (j : Fin 32) : idx_main_v7 (idx_main_v8 (ix2 n j)) = ix1 j := by
  funext a
  match a with
  | ⟨0, _⟩ => rfl

/-! ## A gate's weight matrix -/

/-- The update gate's matrix: the two slices of the [2, 42, 32] argument, added. -/
theorem v5_at (x4 : FVec Ideal S2x42x32 .f32) (k : Fin 42) (j : Fin 32) :
    val_main_v5 (F := Ideal) x4 (ix2 k j) = Cert.Gru.Wsum x4 k j := by
  rw [val_main_v5_apply, val_main_v2_apply, val_main_v1_apply, val_main_v4_apply, val_main_v3_apply,
    idx_slice0, idx_slice1]
  rfl

/-- The reset gate's matrix. -/
theorem v20_at (x6 : FVec Ideal S2x42x32 .f32) (k : Fin 42) (j : Fin 32) :
    val_main_v20 (F := Ideal) x6 (ix2 k j) = Cert.Gru.Wsum x6 k j := by
  rw [val_main_v20_apply, val_main_v17_apply, val_main_v16_apply, val_main_v19_apply, val_main_v18_apply]
  rw [show idx_main_v16 (idx_main_v17 (ix2 k j)) = ix3 (0 : Fin 2) k j from idx_slice0 k j,
    show idx_main_v18 (idx_main_v19 (ix2 k j)) = ix3 (1 : Fin 2) k j from idx_slice1 k j]
  rfl

/-- The candidate's matrix. -/
theorem v37_at (x8 : FVec Ideal S2x42x32 .f32) (k : Fin 42) (j : Fin 32) :
    val_main_v37 (F := Ideal) x8 (ix2 k j) = Cert.Gru.Wsum x8 k j := by
  rw [val_main_v37_apply, val_main_v34_apply, val_main_v33_apply, val_main_v36_apply, val_main_v35_apply]
  rw [show idx_main_v33 (idx_main_v34 (ix2 k j)) = ix3 (0 : Fin 2) k j from idx_slice0 k j,
    show idx_main_v35 (idx_main_v36 (ix2 k j)) = ix3 (1 : Fin 2) k j from idx_slice1 k j]
  rfl

/-! ## The joined row -/

/-- A row [x, y] of width 42 read below column 10 is x. -/
theorem concat_left (x : FVec Ideal S500000x10 .f32) (y : FVec Ideal S500000x32 .f32) (n : Fin 500000) (k : Fin 10) :
    concatenate S500000x42 1 [⟨S500000x10, x⟩, ⟨S500000x32, y⟩] concatenates_S500000x10_S500000x32_S500000x42_d1
      (ix2 n (Fin.castAdd 32 k)) = x (ix2 n k) :=
  concatenate_pair_apply_left (1 : Fin S500000x42.rank) x y concatenates_S500000x10_S500000x32_S500000x42_d1
    (ix2 n (Fin.castAdd 32 k)) rfl (ix2 n k) (fun b => match b with
      | ⟨0, _⟩ => rfl
      | ⟨1, _⟩ => rfl)

/-- A row [x, y] of width 42 read at column 10 + k is y at column k. -/
theorem concat_right (x : FVec Ideal S500000x10 .f32) (y : FVec Ideal S500000x32 .f32) (n : Fin 500000) (k : Fin 32) :
    concatenate S500000x42 1 [⟨S500000x10, x⟩, ⟨S500000x32, y⟩] concatenates_S500000x10_S500000x32_S500000x42_d1
      (ix2 n (Fin.natAdd 10 k)) = y (ix2 n k) :=
  concatenate_pair_apply_right (1 : Fin S500000x42.rank) x y concatenates_S500000x10_S500000x32_S500000x42_d1
    (ix2 n (Fin.natAdd 10 k)) rfl rfl (ix2 n k) (fun b => match b with
      | ⟨0, _⟩ => fun _ => rfl
      | ⟨1, _⟩ => fun h => absurd rfl h)
    (show k.val + 10 = 10 + k.val by omega)

/-- A bias broadcast over the rows, at (n, j). -/
theorem v8_at (x5 : FVec Ideal S32 .f32) (n : Fin 500000) (j : Fin 32) :
    val_main_v8 (F := Ideal) x5 (ix2 n j) = x5 (ix1 j) := by
  rw [val_main_v8_apply, val_main_v7_apply, idx_bias]

theorem v23_at (x7 : FVec Ideal S32 .f32) (n : Fin 500000) (j : Fin 32) :
    val_main_v23 (F := Ideal) x7 (ix2 n j) = x7 (ix1 j) := by
  rw [val_main_v23_apply, val_main_v22_apply]
  rw [show idx_main_v22 (idx_main_v23 (ix2 n j)) = ix1 j from idx_bias n j]

theorem v40_at (x9 : FVec Ideal S32 .f32) (n : Fin 500000) (j : Fin 32) :
    val_main_v40 (F := Ideal) x9 (ix2 n j) = x9 (ix1 j) := by
  rw [val_main_v40_apply, val_main_v39_apply]
  rw [show idx_main_v39 (idx_main_v40 (ix2 n j)) = ix1 j from idx_bias n j]

/-! ## A gate's pre-activation -/

/-- The update gate's pre-activation at (n, j): the affine map of rows n of x and h. -/
theorem v9_at (x0 : FVec Ideal S500000x10 .f32) (x3 : FVec Ideal S500000x32 .f32) (x4 : FVec Ideal S2x42x32 .f32)
    (x5 : FVec Ideal S32 .f32) (n : Fin 500000) (j : Fin 32) :
    val_main_v9 (F := Ideal) x0 x3 x4 x5 (ix2 n j)
      = Cert.Gru.lin (fun k => x0 (ix2 n k)) (fun k => x3 (ix2 n k))
          (fun k => Cert.Gru.Wsum x4 (Fin.castAdd 32 k)) (fun k => Cert.Gru.Wsum x4 (Fin.natAdd 10 k))
          (fun q => x5 (ix1 q)) j := by
  rw [val_main_v9_apply, val_main_v6_apply, v8_at]
  simp only [lidx_eq, ridx_eq, v5_at]
  exact Cert.Gru.lin_joined (fun k => x0 (ix2 n k)) (fun k => x3 (ix2 n k)) (Cert.Gru.Wsum x4) (fun q => x5 (ix1 q)) j
    (fun k => val_main_v0 (F := Ideal) x0 x3 (ix2 n k)) (fun k => concat_left x0 x3 n k) (fun k => concat_right x0 x3 n k)

/-- The reset gate's pre-activation at (n, j). -/
theorem v24_at (x0 : FVec Ideal S500000x10 .f32) (x3 : FVec Ideal S500000x32 .f32) (x6 : FVec Ideal S2x42x32 .f32)
    (x7 : FVec Ideal S32 .f32) (n : Fin 500000) (j : Fin 32) :
    val_main_v24 (F := Ideal) x0 x3 x6 x7 (ix2 n j)
      = Cert.Gru.lin (fun k => x0 (ix2 n k)) (fun k => x3 (ix2 n k))
          (fun k => Cert.Gru.Wsum x6 (Fin.castAdd 32 k)) (fun k => Cert.Gru.Wsum x6 (Fin.natAdd 10 k))
          (fun q => x7 (ix1 q)) j := by
  rw [val_main_v24_apply, val_main_v21_apply, v23_at]
  simp only [show ∀ k : Fin 42, lidx_main_v21 (ix2 n j) k = ix2 n k from lidx_eq n j,
    show ∀ k : Fin 42, ridx_main_v21 (ix2 n j) k = ix2 k j from ridx_eq n j, v20_at]
  exact Cert.Gru.lin_joined (fun k => x0 (ix2 n k)) (fun k => x3 (ix2 n k)) (Cert.Gru.Wsum x6) (fun q => x7 (ix1 q)) j
    (fun k => val_main_v0 (F := Ideal) x0 x3 (ix2 n k)) (fun k => concat_left x0 x3 n k) (fun k => concat_right x0 x3 n k)

/-! ## The gates -/

/-- The update gate: the expanded quotient is the logistic function of the pre-activation. -/
theorem v15_at (x0 : FVec Ideal S500000x10 .f32) (x3 : FVec Ideal S500000x32 .f32) (x4 : FVec Ideal S2x42x32 .f32)
    (x5 : FVec Ideal S32 .f32) (i : S500000x32.Idx) :
    val_main_v15 (F := Ideal) x0 x3 x4 x5 i = Ideal.logistic (val_main_v9 (F := Ideal) x0 x3 x4 x5 i) := by
  rw [val_main_v15_apply, val_main_v14_apply, val_main_cst_0_apply, val_main_v13_apply, val_main_v12_apply,
    val_main_cst_apply, val_main_v11_apply, val_main_v10_apply]
  show Ideal.div (Ideal.ofBits .f32 0x3F800000#32) (Ideal.ofBits .f32 0x3F800000#32 + Ideal.exp (-(val_main_v9 (F := Ideal) x0 x3 x4 x5 i)))
    = Ideal.div 1 (1 + Ideal.exp (-(val_main_v9 (F := Ideal) x0 x3 x4 x5 i)))
  rw [Ideal.ofBits_one_f32]

/-- The reset gate, likewise. -/
theorem v30_at (x0 : FVec Ideal S500000x10 .f32) (x3 : FVec Ideal S500000x32 .f32) (x6 : FVec Ideal S2x42x32 .f32)
    (x7 : FVec Ideal S32 .f32) (i : S500000x32.Idx) :
    val_main_v30 (F := Ideal) x0 x3 x6 x7 i = Ideal.logistic (val_main_v24 (F := Ideal) x0 x3 x6 x7 i) := by
  rw [val_main_v30_apply, val_main_v29_apply, val_main_cst_2_apply, val_main_v28_apply, val_main_v27_apply,
    val_main_cst_1_apply, val_main_v26_apply, val_main_v25_apply]
  show Ideal.div (Ideal.ofBits .f32 0x3F800000#32) (Ideal.ofBits .f32 0x3F800000#32 + Ideal.exp (-(val_main_v24 (F := Ideal) x0 x3 x6 x7 i)))
    = Ideal.div 1 (1 + Ideal.exp (-(val_main_v24 (F := Ideal) x0 x3 x6 x7 i)))
  rw [Ideal.ofBits_one_f32]

/-- The reset state r * h at (n, k). -/
theorem v31_at (x0 : FVec Ideal S500000x10 .f32) (x3 : FVec Ideal S500000x32 .f32) (x6 : FVec Ideal S2x42x32 .f32)
    (x7 : FVec Ideal S32 .f32) (n : Fin 500000) (k : Fin 32) :
    val_main_v31 (F := Ideal) x0 x3 x6 x7 (ix2 n k)
      = Ideal.logistic (Cert.Gru.lin (fun k => x0 (ix2 n k)) (fun k => x3 (ix2 n k))
          (fun k => Cert.Gru.Wsum x6 (Fin.castAdd 32 k)) (fun k => Cert.Gru.Wsum x6 (Fin.natAdd 10 k))
          (fun q => x7 (ix1 q)) k) * x3 (ix2 n k) := by
  rw [val_main_v31_apply, v30_at, v24_at]
  rfl

/-- The candidate's pre-activation at (n, j): the affine map of rows n of x and of r * h. -/
theorem v41_at (x0 : FVec Ideal S500000x10 .f32) (x3 : FVec Ideal S500000x32 .f32) (x6 : FVec Ideal S2x42x32 .f32)
    (x7 : FVec Ideal S32 .f32) (x8 : FVec Ideal S2x42x32 .f32) (x9 : FVec Ideal S32 .f32) (n : Fin 500000) (j : Fin 32) :
    val_main_v41 (F := Ideal) x0 x3 x6 x7 x8 x9 (ix2 n j)
      = Cert.Gru.lin (fun k => x0 (ix2 n k))
          (fun k => Ideal.logistic (Cert.Gru.lin (fun k => x0 (ix2 n k)) (fun k => x3 (ix2 n k))
            (fun k => Cert.Gru.Wsum x6 (Fin.castAdd 32 k)) (fun k => Cert.Gru.Wsum x6 (Fin.natAdd 10 k))
            (fun q => x7 (ix1 q)) k) * x3 (ix2 n k))
          (fun k => Cert.Gru.Wsum x8 (Fin.castAdd 32 k)) (fun k => Cert.Gru.Wsum x8 (Fin.natAdd 10 k))
          (fun q => x9 (ix1 q)) j := by
  rw [val_main_v41_apply, val_main_v38_apply, v40_at]
  simp only [show ∀ k : Fin 42, lidx_main_v38 (ix2 n j) k = ix2 n k from lidx_eq n j,
    show ∀ k : Fin 42, ridx_main_v38 (ix2 n j) k = ix2 k j from ridx_eq n j, v37_at]
  exact Cert.Gru.lin_joined (fun k => x0 (ix2 n k)) _ (Cert.Gru.Wsum x8) (fun q => x9 (ix1 q)) j
    (fun k => val_main_v32 (F := Ideal) x0 x3 x6 x7 (ix2 n k)) (fun k => concat_left x0 _ n k)
    (fun k => (concat_right x0 (val_main_v31 (F := Ideal) x0 x3 x6 x7) n k).trans (v31_at x0 x3 x6 x7 n k))

/-! ## The new state -/

/-- The new state at (n, j) is the specification's. -/
theorem v47_at (x0 : FVec Ideal S500000x10 .f32) (x3 : FVec Ideal S500000x32 .f32) (x4 : FVec Ideal S2x42x32 .f32)
    (x5 : FVec Ideal S32 .f32) (x6 : FVec Ideal S2x42x32 .f32) (x7 : FVec Ideal S32 .f32) (x8 : FVec Ideal S2x42x32 .f32)
    (x9 : FVec Ideal S32 .f32) (n : Fin 500000) (j : Fin 32) :
    val_main_v47 (F := Ideal) x0 x3 x4 x5 x6 x7 x8 x9 (ix2 n j) = Cert.Gru.newState x0 x3 x4 x5 x6 x7 x8 x9 n j := by
  rw [val_main_v47_apply, val_main_v43_apply, val_main_v46_apply, val_main_v45_apply, val_main_v44_apply,
    val_main_cst_3_apply, val_main_v42_apply, v15_at, v9_at, v41_at]
  rfl

theorem ref_hnew (x0 : FVec Ideal S500000x10 .f32) (x3 : FVec Ideal S500000x32 .f32) (x4 : FVec Ideal S2x42x32 .f32)
    (x5 : FVec Ideal S32 .f32) (x6 : FVec Ideal S2x42x32 .f32) (x7 : FVec Ideal S32 .f32) (x8 : FVec Ideal S2x42x32 .f32)
    (x9 : FVec Ideal S32 .f32) :
    val_main_v47 (F := Ideal) x0 x3 x4 x5 x6 x7 x8 x9 = Cert.Gru.GH x0 x3 x4 x5 x6 x7 x8 x9 := by
  funext i
  obtain ⟨n, j, rfl⟩ : ∃ (n : Fin 500000) (j : Fin 32), i = ix2 n j := ⟨i 0, i 1, eq_ix2 i⟩
  exact v47_at x0 x3 x4 x5 x6 x7 x8 x9 n j

/-! ## The head -/

/-- The left index of the head's contraction: row n, column k of the rectified state. -/
theorem lidx_head (n : Fin 500000) (o : Fin 2) (k : Fin 32) : lidx_main_v51 (ix2 n o) k = ix2 n k := by
  funext a
  match a with
  | ⟨0, _⟩ => rfl
  | ⟨1, _⟩ => rfl

/-- The right index, traced through the transpose: entry (o, k) of the [2, 32] matrix. -/
theorem ridx_head (n : Fin 500000) (o : Fin 2) (k : Fin 32) : idx_main_v50 (ridx_main_v51 (ix2 n o) k) = ix2 o k := by
  funext a
  match a with
  | ⟨0, _⟩ => rfl
  | ⟨1, _⟩ => rfl

/-- The head's bias of length 2 broadcast over the rows reads entry o at (n, o). -/
theorem idx_head_bias (n : Fin 500000) (o : Fin 2) : idx_main_v52 (idx_main_v53 (ix2 n o)) = ix1 o := by
  funext a
  match a with
  | ⟨0, _⟩ => rfl

/-- The head at (n, o) is the specification's head of row n of the new state. -/
theorem v54_at (x0 : FVec Ideal S500000x10 .f32) (x3 : FVec Ideal S500000x32 .f32) (x4 : FVec Ideal S2x42x32 .f32)
    (x5 : FVec Ideal S32 .f32) (x6 : FVec Ideal S2x42x32 .f32) (x7 : FVec Ideal S32 .f32) (x8 : FVec Ideal S2x42x32 .f32)
    (x9 : FVec Ideal S32 .f32) (x10 : FVec Ideal S2x32 .f32) (x11 : FVec Ideal S2 .f32) (n : Fin 500000) (o : Fin 2) :
    val_main_v54 (F := Ideal) x0 x3 x4 x5 x6 x7 x8 x9 x10 x11 (ix2 n o)
      = Cert.Gru.head (fun k => Cert.Gru.newState x0 x3 x4 x5 x6 x7 x8 x9 n k) (fun k o => x10 (ix2 o k))
          (fun o => x11 (ix1 o)) o := by
  rw [val_main_v54_apply, val_main_v51_apply, val_main_v53_apply, val_main_v52_apply, idx_head_bias]
  simp only [lidx_head, val_main_v49_apply, val_main_v48_apply, val_main_cst_4_apply, val_main_v50_apply, ridx_head,
    v47_at]
  rfl

theorem ref_out (x0 : FVec Ideal S500000x10 .f32) (x3 : FVec Ideal S500000x32 .f32) (x4 : FVec Ideal S2x42x32 .f32)
    (x5 : FVec Ideal S32 .f32) (x6 : FVec Ideal S2x42x32 .f32) (x7 : FVec Ideal S32 .f32) (x8 : FVec Ideal S2x42x32 .f32)
    (x9 : FVec Ideal S32 .f32) (x10 : FVec Ideal S2x32 .f32) (x11 : FVec Ideal S2 .f32) :
    val_main_v54 (F := Ideal) x0 x3 x4 x5 x6 x7 x8 x9 x10 x11 = Cert.Gru.GO x0 x3 x4 x5 x6 x7 x8 x9 x10 x11 := by
  funext i
  obtain ⟨n, o, rfl⟩ : ∃ (n : Fin 500000) (o : Fin 2), i = ix2 n o := ⟨i 0, i 1, eq_ix2 i⟩
  exact v54_at x0 x3 x4 x5 x6 x7 x8 x9 x10 x11 n o

end Cert.ReferenceIdeal.RefValue

end
-- ==== Proof.lean ====
/-
  A gated recurrent step on a graph whose diffusion has a single hop, with a rectified linear head: the tiled kernel
  against the plain reference, on the extended reals.

  Both programs compute, for every node n, the new state
      z * h + (1 - z) * tanh (lin x (r * h)),   z = logistic (lin x h),  r = logistic (lin x h)
  (each `lin` with its own gate's summed weight matrix and bias) and the head max (new state) 0 @ W_lin^T + b_lin. The
  reference joins the rows [x, h] and contracts the 42 joined columns at once; the kernel keeps x and h apart and adds
  the two partial contractions, on tiles of 5000 rows, its weights prepared (added, cut, transposed) by the host. A sum
  over 42 terms is the sum of its first 10 and its last 32 terms on the extended reals whatever the terms are, so the
  two agree entry by entry, and the inputs' finiteness is never used. The specification is Proof/Spec.lean; the
  reference read entry by entry is Proof/RefValue.lean; the kernel's body on a tile is Proof/KernelBody.lean over
  Proof/Tile.lean, the host's prepared arrays Proof/Windows.lean, and the passage from tiles to whole arrays
  Proof/Blocks.lean. The three frames are the generated ones; the idealization rewrote nothing, so `preserves` is
  trivial.
-/
import proofs.«174881_j37391985279605_2_alg».proof.Defs
import proofs.«174881_j37391985279605_2_alg».proof.Proof.Gen.Kernel
import proofs.«174881_j37391985279605_2_alg».proof.Proof.Gen.Kernel.Skeleton
import proofs.«174881_j37391985279605_2_alg».proof.Proof.Gen.Kernel.Launch
import proofs.«174881_j37391985279605_2_alg».proof.Proof.Gen.Kernel.Points
import proofs.«174881_j37391985279605_2_alg».proof.Proof.Gen.Kernel.Frame
import proofs.«174881_j37391985279605_2_alg».proof.Proof.Gen.KernelIdeal
import proofs.«174881_j37391985279605_2_alg».proof.Proof.Gen.KernelIdeal.Skeleton
import proofs.«174881_j37391985279605_2_alg».proof.Proof.Gen.KernelIdeal.Launch
import proofs.«174881_j37391985279605_2_alg».proof.Proof.Gen.KernelIdeal.Points
import proofs.«174881_j37391985279605_2_alg».proof.Proof.Gen.KernelIdeal.Frame
import proofs.«174881_j37391985279605_2_alg».proof.Proof.Gen.ReferenceIdeal
import proofs.«174881_j37391985279605_2_alg».proof.Proof.Gen.Pre_finite_inputs
import proofs.«174881_j37391985279605_2_alg».proof.Proof.Gen.KernelIdeal.Value
import proofs.«174881_j37391985279605_2_alg».proof.Proof.Gen.ReferenceIdeal.Run
import proofs.«174881_j37391985279605_2_alg».proof.Proof.Gen.ReferenceIdeal.Read
import proofs.«174881_j37391985279605_2_alg».proof.Proof.Blocks
import proofs.«174881_j37391985279605_2_alg».proof.Proof.RefValue
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- And the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Run from memories that agree on the arguments, the kernel ends with the head's array at `GO` and the new-state
    array at `GH` of its arguments, and the reference with its two results at the same two functions of its own. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v54_eq, Cert.ReferenceIdeal.RefValue.ref_out, a0, a3, a4, a5, a6, a7, a8, a9, a10, a11]
  · obtain ⟨a0, a1, a2, a3, a4, a5, a6, a7, a8, a9, a10, a11⟩ := hagree c
    refine (Cert.ReferenceIdeal.Read.val_main_v47_eq _ _ _ _ _ _ _ _).trans ?_
    rw [Cert.ReferenceIdeal.RefValue.ref_hnew, a0, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
